-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x2048x16 : Shape := ⟨4, ![8, 4, 2048, 16]⟩
abbrev S_ : Shape := ⟨0, ![]⟩
abbrev S8x4x2048 : Shape := ⟨3, ![8, 4, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S8x4 : Shape := ⟨2, ![8, 4]⟩
abbrev S8x4x1x1 : Shape := ⟨4, ![8, 4, 1, 1]⟩

class Facts : Prop where
  bcast_S_S8x4x2048x16 : S_.BroadcastsInDim S8x4x2048x16 (![] : Fin 0 → Fin S8x4x2048x16.rank)
  reducesTo_S8x4x2048x16_S_d0_1_2_3 : S8x4x2048x16.ReducesTo [0, 1, 2, 3] S_
  h_S_ : 0 < S_.numel
  reducesTo_S8x4x2048x16_S8x4x2048_d3 : S8x4x2048x16.ReducesTo [3] S8x4x2048
  bcast_S8x4x2048_S8x4x2048x1_0_1_2 : S8x4x2048.BroadcastsInDim S8x4x2048x1 (![0, 1, 2] : Fin 3 → Fin S8x4x2048x1.rank)
  bcast_S8x4x2048_S8x4x1x2048_0_1_3 : S8x4x2048.BroadcastsInDim S8x4x1x2048 (![0, 1, 3] : Fin 3 → Fin S8x4x1x2048.rank)
  bcast_S8x4x2048x1_S8x4x2048x2048_0_1_2_3 : S8x4x2048x1.BroadcastsInDim S8x4x2048x2048 (![0, 1, 2, 3] : Fin 4 → Fin S8x4x2048x2048.rank)
  bcast_S8x4x1x2048_S8x4x2048x2048_0_1_2_3 : S8x4x1x2048.BroadcastsInDim S8x4x2048x2048 (![0, 1, 2, 3] : Fin 4 → Fin S8x4x2048x2048.rank)
  bcast_S_S8x4x2048x2048 : S_.BroadcastsInDim S8x4x2048x2048 (![] : Fin 0 → Fin S8x4x2048x2048.rank)
  reducesTo_S8x4x2048x2048_S8x4_d2_3 : S8x4x2048x2048.ReducesTo [2, 3] S8x4
  bcast_S8x4_S8x4x1x1_0_1 : S8x4.BroadcastsInDim S8x4x1x1 (![0, 1] : Fin 2 → Fin S8x4x1x1.rank)
  bcast_S_S8x4x1x1 : S_.BroadcastsInDim S8x4x1x1 (![] : Fin 0 → Fin S8x4x1x1.rank)
  reducesTo_S8x4x1x1_S_d0_1_2_3 : S8x4x1x1.ReducesTo [0, 1, 2, 3] S_
  dot_S8x4x2048x16_S8x4x2048x16_S8x4x2048x2048_3_3_2_2_01_01_wf : DotDims.WF S8x4x2048x16 S8x4x2048x16 S8x4x2048x2048 [3] [3] [2] [2] [0, 1] [0, 1]

variable [Facts]

def dot_S8x4x2048x16_S8x4x2048x16_S8x4x2048x2048_3_3_2_2_01_01 : DotDims S8x4x2048x16 S8x4x2048x16 S8x4x2048x2048 where
  lhsContracting := [3]
  rhsContracting := [3]
  lhsNonContracting := [2]
  rhsNonContracting := [2]
  lhsBatch := [0, 1]
  rhsBatch := [0, 1]
  wf := dot_S8x4x2048x16_S8x4x2048x16_S8x4x2048x2048_3_3_2_2_01_01_wf
def fn_part1 {F : FTy → Type} [FloatOps F] (main_v8 : IVec S_ 1) (main_v15 : FVec F S8x4x2048x2048 .f32) (main_v16 : FVec F S8x4x2048x2048 .f32) (main_v17 : FVec F S8x4x2048x2048 .f32) : IVec S_ 1 :=
  let main_v18 : FVec F S8x4x2048x2048 .f32 := addf main_v16 main_v17
  let main_cst_4 : FVec F S_ .f32 := constant S_ .f32 0x40000000#32
  let main_v19 : FVec F S8x4x2048x2048 .f32 := broadcastInDim S8x4x2048x2048 ![] bcast_S_S8x4x2048x2048 main_cst_4
  let main_v20 : FVec F S8x4x2048x2048 .f32 := mulf main_v19 main_v15
  let main_v21 : FVec F S8x4x2048x2048 .f32 := subf main_v18 main_v20
  let main_v22 : FVec F S8x4x2048x2048 .f32 := Host.sqrt main_v21
  let main_cst_5 : FVec F S_ .f32 := constant S_ .f32 0xFF800000#32
  let main_v23 : FVec F S8x4 .f32 := (fun x v => Host.reduce FloatOps.maximumf x v reducesTo_S8x4x2048x2048_S8x4_d2_3 h_S_) main_v22 main_cst_5
  let main_v24 : FVec F S8x4x1x1 .f32 := broadcastInDim S8x4x1x1 ![0, 1] bcast_S8x4_S8x4x1x1_0_1 main_v23
  let main_cst_6 : FVec F S_ .f32 := constant S_ .f32 0x7F800000#32
  let main_v25 : FVec F S8x4 .f32 := (fun x v => Host.reduce FloatOps.minimumf x v reducesTo_S8x4x2048x2048_S8x4_d2_3 h_S_) main_v22 main_cst_6
  let main_v26 : FVec F S8x4x1x1 .f32 := broadcastInDim S8x4x1x1 ![0, 1] bcast_S8x4_S8x4x1x1_0_1 main_v25
  let main_v27 : FVec F S8x4x1x1 .f32 := subf main_v24 main_v26
  let main_cst_7 : FVec F S_ .f32 := constant S_ .f32 0x00000000#32
  let main_v28 : FVec F S8x4x1x1 .f32 := broadcastInDim S8x4x1x1 ![] bcast_S_S8x4x1x1 main_cst_7
  let main_v29 : IVec S8x4x1x1 1 := cmpf .une main_v27 main_v28
  let main_c_8 : IVec S_ 1 := constantI S_ 1 1#1
  let main_v30 : IVec S_ 1 := (fun x v => Host.reduce IntOp.andi x v reducesTo_S8x4x1x1_S_d0_1_2_3 h_S_) main_v29 main_c_8
  let main_v31 : IVec S_ 1 := andi main_v8 main_v30
  main_v31

def fn {F : FTy → Type} [FloatOps F] (main_arg0 : FVec F S8x4x2048x16 .f32) (main_arg1 : FVec F S8x4x2048x16 .f32) : IVec S_ 1 :=
  let main_v0 : FVec F S8x4x2048x16 .f32 := Host.absf main_arg0
  let main_cst : FVec F S_ .f32 := constant S_ .f32 0x7F800000#32
  let main_v1 : FVec F S8x4x2048x16 .f32 := broadcastInDim S8x4x2048x16 ![] bcast_S_S8x4x2048x16 main_cst
  let main_v2 : IVec S8x4x2048x16 1 := cmpf .olt main_v0 main_v1
  let main_c : IVec S_ 1 := constantI S_ 1 1#1
  let main_v3 : IVec S_ 1 := (fun x v => Host.reduce IntOp.andi x v reducesTo_S8x4x2048x16_S_d0_1_2_3 h_S_) main_v2 main_c
  let main_v4 : FVec F S8x4x2048x16 .f32 := Host.absf main_arg1
  let main_cst_0 : FVec F S_ .f32 := constant S_ .f32 0x7F800000#32
  let main_v5 : FVec F S8x4x2048x16 .f32 := broadcastInDim S8x4x2048x16 ![] bcast_S_S8x4x2048x16 main_cst_0
  let main_v6 : IVec S8x4x2048x16 1 := cmpf .olt main_v4 main_v5
  let main_c_1 : IVec S_ 1 := constantI S_ 1 1#1
  let main_v7 : IVec S_ 1 := (fun x v => Host.reduce IntOp.andi x v reducesTo_S8x4x2048x16_S_d0_1_2_3 h_S_) main_v6 main_c_1
  let main_v8 : IVec S_ 1 := andi main_v3 main_v7
  let main_v9 : FVec F S8x4x2048x16 .f32 := mulf main_arg0 main_arg0
  let main_cst_2 : FVec F S_ .f32 := constant S_ .f32 0x00000000#32
  let main_v10 : FVec F S8x4x2048 .f32 := (fun x v => Host.reduceAdd x v reducesTo_S8x4x2048x16_S8x4x2048_d3 h_S_) main_v9 main_cst_2
  let main_v11 : FVec F S8x4x2048x1 .f32 := broadcastInDim S8x4x2048x1 ![0, 1, 2] bcast_S8x4x2048_S8x4x2048x1_0_1_2 main_v10
  let main_v12 : FVec F S8x4x2048x16 .f32 := mulf main_arg1 main_arg1
  let main_cst_3 : FVec F S_ .f32 := constant S_ .f32 0x00000000#32
  let main_v13 : FVec F S8x4x2048 .f32 := (fun x v => Host.reduceAdd x v reducesTo_S8x4x2048x16_S8x4x2048_d3 h_S_) main_v12 main_cst_3
  let main_v14 : FVec F S8x4x1x2048 .f32 := broadcastInDim S8x4x1x2048 ![0, 1, 3] bcast_S8x4x2048_S8x4x1x2048_0_1_3 main_v13
  let main_v15 : FVec F S8x4x2048x2048 .f32 := (fun l r => Host.dotGeneral dot_S8x4x2048x16_S8x4x2048x16_S8x4x2048x2048_3_3_2_2_01_01 none l r) main_arg0 main_arg1
  let main_v16 : FVec F S8x4x2048x2048 .f32 := broadcastInDim S8x4x2048x2048 ![0, 1, 2, 3] bcast_S8x4x2048x1_S8x4x2048x2048_0_1_2_3 main_v11
  let main_v17 : FVec F S8x4x2048x2048 .f32 := broadcastInDim S8x4x2048x2048 ![0, 1, 2, 3] bcast_S8x4x1x2048_S8x4x2048x2048_0_1_2_3 main_v14
  fn_part1 (F := F) main_v8 main_v15 main_v16 main_v17
-- ==== Kernel.lean ====
abbrev S8x4x2048x16 : Shape := ⟨4, ![8, 4, 2048, 16]⟩
abbrev S8x4x2048x2048 : Shape := ⟨4, ![8, 4, 2048, 2048]⟩
abbrev S1x1x2048x16 : Shape := ⟨4, ![1, 1, 2048, 16]⟩
abbrev S1x1x2048x2048 : Shape := ⟨4, ![1, 1, 2048, 2048]⟩
abbrev S2048x2048 : Shape := ⟨2, ![2048, 2048]⟩
abbrev S2048x16 : Shape := ⟨2, ![2048, 16]⟩
abbrev S2048 : Shape := ⟨1, ![2048]⟩
abbrev S2048x1 : Shape := ⟨2, ![2048, 1]⟩
abbrev S1x2048 : Shape := ⟨2, ![1, 2048]⟩
abbrev S16x2048 : Shape := ⟨2, ![16, 2048]⟩
abbrev S1x1 : Shape := ⟨2, ![1, 1]⟩
abbrev S256x16 : Shape := ⟨2, ![256, 16]⟩
abbrev S256x1 : Shape := ⟨2, ![256, 1]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1x256x2048 : Shape := ⟨4, ![1, 1, 256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8x4x2048x16, .f32⟩
  | .hbm, ⟨1, _⟩ => ⟨S8x4x2048x16, .f32⟩
  | .hbm, ⟨2, _⟩ => ⟨S8x4x2048x2048, .f32⟩
  | .local _ .vmem, ⟨0, _⟩ => ⟨S1x1x2048x16, .f32⟩
  | .local _ .vmem, ⟨1, _⟩ => ⟨S1x1x2048x16, .f32⟩
  | .local _ .vmem, ⟨2, _⟩ => ⟨S1x1x2048x16, .f32⟩
  | .local _ .vmem, ⟨3, _⟩ => ⟨S1x1x2048x16, .f32⟩
  | .local _ .vmem, ⟨4, _⟩ => ⟨S1x1x2048x2048, .f32⟩
  | .local _ .vmem, ⟨5, _⟩ => ⟨S1x1x2048x2048, .f32⟩
  | .local _ .vmem, ⟨6, _⟩ => ⟨S2048x2048, .f32⟩
  | _, _ => ⟨S8x4x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x2048x16_S1x1x2048x16_0_0_0_0 : ∀ a, (![0, 0, 0, 0] : Fin 4 → Nat) a + S1x1x2048x16.size a ≤ S1x1x2048x16.size a
  h_S1x1x2048x16 : 0 < S1x1x2048x16.numel
  shapeCasts_S1x1x2048x16_S2048x16 : S1x1x2048x16.ShapeCasts S2048x16
  reduces_S2048x16_S2048 : S2048x16.Reduces [1] S2048
  shapeCasts_S2048_S2048x1 : S2048.ShapeCasts S2048x1
  shapeCasts_S2048_S1x2048 : S2048.ShapeCasts S1x2048
  transposes_S2048x16_p1_0_S16x2048 : S2048x16.Transposes [1, 0] S16x2048
  slices_S2048x16_o0_0_S256x16 : S2048x16.Slices ![0, 0] S256x16
  slices_S2048x1_o0_0_S256x1 : S2048x1.Slices ![0, 0] S256x1
  broadcasts_S256x1_S256x2048 : S256x1.Broadcasts S256x2048
  broadcasts_S1x2048_S256x2048 : S1x2048.Broadcasts S256x2048
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  shapeCasts_S256x2048_S1x256x2048 : S256x2048.ShapeCasts S1x256x2048
  reduces_S1x256x2048_S1 : S1x256x2048.Reduces [1, 2] S1
  shapeCasts_S1_S1x1x1 : S1.ShapeCasts S1x1x1
  inpos_S1x1x1_p0_0_0 : ∀ a, (![0, 0, 0] : Fin 3 → Nat) a < S1x1x1.size a
  slices_S2048x16_o256_0_S256x16 : S2048x16.Slices ![256, 0] S256x16
  slices_S2048x1_o256_0_S256x1 : S2048x1.Slices ![256, 0] S256x1
  inb_S2048x2048_S256x2048_256_0 : ∀ a, (![256, 0] : Fin 2 → Nat) a + S256x2048.size a ≤ S2048x2048.size a
  slices_S2048x16_o512_0_S256x16 : S2048x16.Slices ![512, 0] S256x16
  slices_S2048x1_o512_0_S256x1 : S2048x1.Slices ![512, 0] S256x1
  inb_S2048x2048_S256x2048_512_0 : ∀ a, (![512, 0] : Fin 2 → Nat) a + S256x2048.size a ≤ S2048x2048.size a
  slices_S2048x16_o768_0_S256x16 : S2048x16.Slices ![768, 0] S256x16
  slices_S2048x1_o768_0_S256x1 : S2048x1.Slices ![768, 0] S256x1
  inb_S2048x2048_S256x2048_768_0 : ∀ a, (![768, 0] : Fin 2 → Nat) a + S256x2048.size a ≤ S2048x2048.size a
  slices_S2048x16_o1024_0_S256x16 : S2048x16.Slices ![1024, 0] S256x16
  slices_S2048x1_o1024_0_S256x1 : S2048x1.Slices ![1024, 0] S256x1
  inb_S2048x2048_S256x2048_1024_0 : ∀ a, (![1024, 0] : Fin 2 → Nat) a + S256x2048.size a ≤ S2048x2048.size a
  slices_S2048x16_o1280_0_S256x16 : S2048x16.Slices ![1280, 0] S256x16
  slices_S2048x1_o1280_0_S256x1 : S2048x1.Slices ![1280, 0] S256x1
  inb_S2048x2048_S256x2048_1280_0 : ∀ a, (![1280, 0] : Fin 2 → Nat) a + S256x2048.size a ≤ S2048x2048.size a
  slices_S2048x16_o1536_0_S256x16 : S2048x16.Slices ![1536, 0] S256x16
  slices_S2048x1_o1536_0_S256x1 : S2048x1.Slices ![1536, 0] S256x1
  inb_S2048x2048_S256x2048_1536_0 : ∀ a, (![1536, 0] : Fin 2 → Nat) a + S256x2048.size a ≤ S2048x2048.size a
  slices_S2048x16_o1792_0_S256x16 : S2048x16.Slices ![1792, 0] S256x16
  slices_S2048x1_o1792_0_S256x1 : S2048x1.Slices ![1792, 0] S256x1
  inb_S2048x2048_S256x2048_1792_0 : ∀ a, (![1792, 0] : Fin 2 → Nat) a + S256x2048.size a ≤ S2048x2048.size a
  broadcasts_S1x1_S256x2048 : S1x1.Broadcasts S256x2048
  inb_S1x1x2048x2048_S1x1x256x2048_0_0_0_0 : ∀ a, (![0, 0, 0, 0] : Fin 4 → Nat) a + S1x1x256x2048.size a ≤ S1x1x2048x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x1x2048x2048_S1x1x256x2048_0_0_256_0 : ∀ a, (![0, 0, 256, 0] : Fin 4 → Nat) a + S1x1x256x2048.size a ≤ S1x1x2048x2048.size a
  inb_S1x1x2048x2048_S1x1x256x2048_0_0_512_0 : ∀ a, (![0, 0, 512, 0] : Fin 4 → Nat) a + S1x1x256x2048.size a ≤ S1x1x2048x2048.size a
  inb_S1x1x2048x2048_S1x1x256x2048_0_0_768_0 : ∀ a, (![0, 0, 768, 0] : Fin 4 → Nat) a + S1x1x256x2048.size a ≤ S1x1x2048x2048.size a
  inb_S1x1x2048x2048_S1x1x256x2048_0_0_1024_0 : ∀ a, (![0, 0, 1024, 0] : Fin 4 → Nat) a + S1x1x256x2048.size a ≤ S1x1x2048x2048.size a
  inb_S1x1x2048x2048_S1x1x256x2048_0_0_1280_0 : ∀ a, (![0, 0, 1280, 0] : Fin 4 → Nat) a + S1x1x256x2048.size a ≤ S1x1x2048x2048.size a
  inb_S1x1x2048x2048_S1x1x256x2048_0_0_1536_0 : ∀ a, (![0, 0, 1536, 0] : Fin 4 → Nat) a + S1x1x256x2048.size a ≤ S1x1x2048x2048.size a
  inb_S1x1x2048x2048_S1x1x256x2048_0_0_1792_0 : ∀ a, (![0, 0, 1792, 0] : Fin 4 → Nat) a + S1x1x256x2048.size a ≤ S1x1x2048x2048.size a
  dot_S256x16_S16x2048_S256x2048_1_0_0_1_n_n_wf : DotDims.WF S256x16 S16x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x16.size a ≤ S8x4x2048x16.size a
  hwx0_0 : ∀ i : grid0.Coords, EltTy.bits .f32 = 32 ∨ (Rect.block (s := S8x4x2048x16) S1x1x2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x16.size a ≤ S8x4x2048x16.size a
  hwx0_1 : ∀ i : grid0.Coords, EltTy.bits .f32 = 32 ∨ (Rect.block (s := S8x4x2048x16) S1x1x2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x2048.size a ≤ S8x4x2048x2048.size a
  hwx0_2 : ∀ i : grid0.Coords, EltTy.bits .f32 = 32 ∨ (Rect.block (s := S8x4x2048x2048) S1x1x2048x2048.size (cc0_transform_2 i) (hinb0_2 i)).WholeWords (EltTy.packing .f32)

variable [Facts₀]

def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf

abbrev win0_0 : Pipeline.Window sig grid0 :=
  Pipeline.Window.ofSpec (Memref.whole main_arg0) S1x1x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4x2048x16 : Shape := ⟨4, ![8, 4, 2048, 16]⟩
abbrev S_ : Shape := ⟨0, ![]⟩
abbrev S8x4x2048 : Shape := ⟨3, ![8, 4, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S8x4 : Shape := ⟨2, ![8, 4]⟩
abbrev S8x4x1x1 : Shape := ⟨4, ![8, 4, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x4x2048x16, .f32⟩
  | .hbm, ⟨1, _⟩ => ⟨S8x4x2048x16, .f32⟩
  | .hbm, ⟨2, _⟩ => ⟨S8x4x2048x16, .f32⟩
  | .hbm, ⟨3, _⟩ => ⟨S_, .f32⟩
  | .hbm, ⟨4, _⟩ => ⟨S8x4x2048, .f32⟩
  | .hbm, ⟨5, _⟩ => ⟨S8x4x2048x1, .f32⟩
  | .hbm, ⟨6, _⟩ => ⟨S8x4x2048x16, .f32⟩
  | .hbm, ⟨7, _⟩ => ⟨S_, .f32⟩
  | .hbm, ⟨8, _⟩ => ⟨S8x4x2048, .f32⟩
  | .hbm, ⟨9, _⟩ => ⟨S8x4x1x2048, .f32⟩
  | .hbm, ⟨10, _⟩ => ⟨S8x4x2048x2048, .f32⟩
  | .hbm, ⟨11, _⟩ => ⟨S8x4x2048x2048, .f32⟩
  | .hbm, ⟨12, _⟩ => ⟨S8x4x2048x2048, .f32⟩
  | .hbm, ⟨13, _⟩ => ⟨S8x4x2048x2048, .f32⟩
  | .hbm, ⟨14, _⟩ => ⟨S_, .f32⟩
  | .hbm, ⟨15, _⟩ => ⟨S8x4x2048x2048, .f32⟩
  | .hbm, ⟨16, _⟩ => ⟨S8x4x2048x2048, .f32⟩
  | .hbm, ⟨17, _⟩ => ⟨S8x4x2048x2048, .f32⟩
  | .hbm, ⟨18, _⟩ => ⟨S8x4x2048x2048, .f32⟩
  | .hbm, ⟨19, _⟩ => ⟨S_, .f32⟩
  | .hbm, ⟨20, _⟩ => ⟨S8x4, .f32⟩
  | .hbm, ⟨21, _⟩ => ⟨S8x4x1x1, .f32⟩
  | .hbm, ⟨22, _⟩ => ⟨S_, .f32⟩
  | .hbm, ⟨23, _⟩ => ⟨S8x4, .f32⟩
  | .hbm, ⟨24, _⟩ => ⟨S8x4x1x1, .f32⟩
  | .hbm, ⟨25, _⟩ => ⟨S8x4x2048x2048, .f32⟩
  | .hbm, ⟨26, _⟩ => ⟨S8x4x2048x2048, .f32⟩
  | .hbm, ⟨27, _⟩ => ⟨S_, .f32⟩
  | .hbm, ⟨28, _⟩ => ⟨S8x4x2048x2048, .f32⟩
  | .hbm, ⟨29, _⟩ => ⟨S8x4x2048x2048, .f32⟩
  | .hbm, ⟨30, _⟩ => ⟨S8x4x1x1, .f32⟩
  | .hbm, ⟨31, _⟩ => ⟨S8x4x2048x2048, .f32⟩
  | .hbm, ⟨32, _⟩ => ⟨S8x4x2048x2048, .f32⟩
  | .hbm, ⟨33, _⟩ => ⟨S_, .f32⟩
  | .hbm, ⟨34, _⟩ => ⟨S8x4x2048x2048, .f32⟩
  | .hbm, ⟨35, _⟩ => ⟨S8x4x2048x2048, .f32⟩
  | _, _ => ⟨S8x4x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  reducesTo_S8x4x2048x16_S8x4x2048_d3 : S8x4x2048x16.ReducesTo [3] S8x4x2048
  h_S_ : 0 < S_.numel
  bcast_S8x4x2048_S8x4x2048x1_0_1_2 : S8x4x2048.BroadcastsInDim S8x4x2048x1 (![0, 1, 2] : Fin 3 → Fin S8x4x2048x1.rank)
  bcast_S8x4x2048_S8x4x1x2048_0_1_3 : S8x4x2048.BroadcastsInDim S8x4x1x2048 (![0, 1, 3] : Fin 3 → Fin S8x4x1x2048.rank)
  bcast_S8x4x2048x1_S8x4x2048x2048_0_1_2_3 : S8x4x2048x1.BroadcastsInDim S8x4x2048x2048 (![0, 1, 2, 3] : Fin 4 → Fin S8x4x2048x2048.rank)
  bcast_S8x4x1x2048_S8x4x2048x2048_0_1_2_3 : S8x4x1x2048.BroadcastsInDim S8x4x2048x2048 (![0, 1, 2, 3] : Fin 4 → Fin S8x4x2048x2048.rank)
  bcast_S_S8x4x2048x2048 : S_.BroadcastsInDim S8x4x2048x2048 (![] : Fin 0 → Fin S8x4x2048x2048.rank)
  reducesTo_S8x4x2048x2048_S8x4_d2_3 : S8x4x2048x2048.ReducesTo [2, 3] S8x4
  bcast_S8x4_S8x4x1x1_0_1 : S8x4.BroadcastsInDim S8x4x1x1 (![0, 1] : Fin 2 → Fin S8x4x1x1.rank)
  bcast_S8x4x1x1_S8x4x2048x2048_0_1_2_3 : S8x4x1x1.BroadcastsInDim S8x4x2048x2048 (![0, 1, 2, 3] : Fin 4 → Fin S8x4x2048x2048.rank)
  dot_S8x4x2048x16_S8x4x2048x16_S8x4x2048x2048_3_3_2_2_01_01_wf : DotDims.WF S8x4x2048x16 S8x4x2048x16 S8x4x2048x2048 [3] [3] [2] [2] [0, 1] [0, 1]

variable [Facts₀]

def dot_S8x4x2048x16_S8x4x2048x16_S8x4x2048x2048_3_3_2_2_01_01 : DotDims S8x4x2048x16 S8x4x2048x16 S8x4x2048x2048 where
  lhsContracting := [3]
  rhsContracting := [3]
  lhsNonContracting := [2]
  rhsNonContracting := [2]
  lhsBatch := [0, 1]
  rhsBatch := [0, 1]
  wf := dot_S8x4x2048x16_S8x4x2048x16_S8x4x2048x2048_3_3_2_2_01_01_wf

class Facts : Prop extends Facts₀ where

variable [Facts]
-- ==== Proof.Spec.lean ====
/-
  Pairwise Euclidean distances between two families of 2048 points in 16 coordinates, rescaled affinely
  so that the smallest distance maps to -9 and the largest to 9 — stated on the extended reals, for one
  (head, batch) slice.

  The squared distance is expanded as |q|² + |k|² - 2·⟨q, k⟩.  One program clamps that expansion at zero
  before the square root (`distK`), the other does not (`distR`); over finite reals the expansion is
  a sum of squares Σ_d (q_d - k_d)², hence never negative, and the clamp is the identity.
  The smallest and largest distance of the slice are the infimum and supremum of the finite family
  (`gmin`, `gmax`), carried by their universal properties.  The rescaling multiplies the offset
  `dist - gmin` by 18 / (gmax - gmin): one program forms the quotient 18 / spread first and then the product
  (`outK`), the other forms the product with 18 first and divides afterwards (`outR`).  When the spread
  is not zero both are the offset times 18 times the inverse of the spread, by associativity of the
  product of extended reals.
-/
import Idealize.ShloMosaic.PureOps.Ideal
import Idealize.ShloMosaic.Lib.ValueIdx

noncomputable section

namespace Cert.DistRescale

open Idealize.ShloMosaic

/-- 2048 points with 16 coordinates each. -/
abbrev Pts := Fin 2048 → Fin 16 → EReal

/-- The squared norm of point `i`. -/
def sqn (x : Pts) (i : Fin 2048) : EReal := ∑ d : Fin 16, x i d * x i d

/-- The inner product of point `i` of `q` with point `j` of `k`. -/
def cross (q k : Pts) (i j : Fin 2048) : EReal := ∑ d : Fin 16, q i d * k j d

/-- The squared distance in its expanded form |q_i|² + |k_j|² - 2·⟨q_i, k_j⟩. -/
def sqd (q k : Pts) (i j : Fin 2048) : EReal :=
  (sqn q i + sqn k j) - Ideal.ofBits .f32 0x40000000#32 * cross q k i j

/-- The distance as the square root of the expansion. -/
def distR (q k : Pts) (i j : Fin 2048) : EReal := Ideal.sqrt (sqd q k i j)

/-- The distance as the square root of the expansion clamped at zero. -/
def distK (q k : Pts) (i j : Fin 2048) : EReal :=
  Ideal.sqrt (max (sqd q k i j) (Ideal.ofBits .f32 0x00000000#32))

/-- The smallest entry of a 2048 × 2048 family. -/
def gmin (f : Fin 2048 → Fin 2048 → EReal) : EReal := ⨅ i, ⨅ j, f i j

/-- The largest entry of a 2048 × 2048 family. -/
def gmax (f : Fin 2048 → Fin 2048 → EReal) : EReal := ⨆ i, ⨆ j, f i j

/-- Largest minus smallest entry. -/
def spread (f : Fin 2048 → Fin 2048 → EReal) : EReal := gmax f - gmin f

theorem le_gmin_iff (f : Fin 2048 → Fin 2048 → EReal) (z : EReal) : z ≤ gmin f ↔ ∀ i j, z ≤ f i j := by
  simp only [gmin, le_iInf_iff]

theorem gmax_le_iff (f : Fin 2048 → Fin 2048 → EReal) (z : EReal) : gmax f ≤ z ↔ ∀ i j, f i j ≤ z := by
  simp only [gmax, iSup_le_iff]

/-- An extended real with exactly the lower bounds of the family is its smallest entry. -/
theorem eq_gmin (f : Fin 2048 → Fin 2048 → EReal) (x : EReal) (h : ∀ z : EReal, z ≤ x ↔ ∀ i j, z ≤ f i j) :
    x = gmin f :=
  le_antisymm ((le_gmin_iff f x).2 ((h x).1 le_rfl)) ((h _).2 ((le_gmin_iff f _).1 le_rfl))

/-- An extended real with exactly the upper bounds of the family is its largest entry. -/
theorem eq_gmax (f : Fin 2048 → Fin 2048 → EReal) (x : EReal) (h : ∀ z : EReal, x ≤ z ↔ ∀ i j, f i j ≤ z) :
    x = gmax f :=
  le_antisymm ((h _).2 ((gmax_le_iff f _).1 le_rfl)) ((gmax_le_iff f x).2 ((h x).1 le_rfl))

/-- The rescaled distance, the product with 18 formed first and the quotient by the spread last. -/
def outR (q k : Pts) (i j : Fin 2048) : EReal :=
  Ideal.ofBits .f32 0xC1100000#32
    + Ideal.div ((distR q k i j - gmin (distR q k)) * Ideal.ofBits .f32 0x41900000#32) (spread (distR q k))

/-- The rescaled distance, the quotient 18 / spread formed first and the product last, over the clamped distance. -/
def outK (q k : Pts) (i j : Fin 2048) : EReal :=
  Ideal.ofBits .f32 0xC1100000#32
    + (distK q k i j - gmin (distK q k)) * Ideal.div (Ideal.ofBits .f32 0x41900000#32) (spread (distK q k))

/-- One (head, batch) slice of a [8, 4, 2048, 16] array. -/
def slice (x : (⟨4, ![8, 4, 2048, 16]⟩ : Shape).Idx → EReal) (h : Fin 8) (b : Fin 4) : Pts :=
  fun i d => x (ValueIdx.ix4 h b i d)

/-- The whole [8, 4, 2048, 2048] result, slice by slice, in the clamped quotient-first form. -/
def GK (x0 x1 : (⟨4, ![8, 4, 2048, 16]⟩ : Shape).Idx → EReal) : (⟨4, ![8, 4, 2048, 2048]⟩ : Shape).Idx → EReal :=
  fun y => outK (slice x0 ⟨(y 0).val, (y 0).isLt⟩ ⟨(y 1).val, (y 1).isLt⟩) (slice x1 ⟨(y 0).val, (y 0).isLt⟩ ⟨(y 1).val, (y 1).isLt⟩)
    ⟨(y 2).val, (y 2).isLt⟩ ⟨(y 3).val, (y 3).isLt⟩

/-- The whole [8, 4, 2048, 2048] result, slice by slice, in the product-first form. -/
def GR (x0 x1 : (⟨4, ![8, 4, 2048, 16]⟩ : Shape).Idx → EReal) : (⟨4, ![8, 4, 2048, 2048]⟩ : Shape).Idx → EReal :=
  fun y => outR (slice x0 ⟨(y 0).val, (y 0).isLt⟩ ⟨(y 1).val, (y 1).isLt⟩) (slice x1 ⟨(y 0).val, (y 0).isLt⟩ ⟨(y 1).val, (y 1).isLt⟩)
    ⟨(y 2).val, (y 2).isLt⟩ ⟨(y 3).val, (y 3).isLt⟩

theorem GK_ix4 (x0 x1 : (⟨4, ![8, 4, 2048, 16]⟩ : Shape).Idx → EReal) (h : Fin 8) (b : Fin 4) (i j : Fin 2048) :
    GK x0 x1 (ValueIdx.ix4 h b i j) = outK (slice x0 h b) (slice x1 h b) i j := rfl

theorem GR_ix4 (x0 x1 : (⟨4, ![8, 4, 2048, 16]⟩ : Shape).Idx → EReal) (h : Fin 8) (b : Fin 4) (i j : Fin 2048) :
    GR x0 x1 (ValueIdx.ix4 h b i j) = outR (slice x0 h b) (slice x1 h b) i j := rfl

end Cert.DistRescale

end
-- ==== Proof.SpecLaw.lean ====
/-
  The clamped quotient-first rescaling and the product-first rescaling of the pairwise distances agree
  on finite inputs whenever the spread of the distances is not zero.

  Over finite reals the expansion |q_i|² + |k_j|² - 2·⟨q_i, k_j⟩ is the coercion of Σ_d (q_i,d - k_j,d)²,
  a sum of squares, hence not negative: clamping it at zero changes nothing, and the two distance
  families coincide.  With equal distances, equal smallest entry and equal spread s ≠ 0, the two results
  are c + a · 18 · s⁻¹ bracketed in two ways, equal by associativity of the product of extended reals.
-/
import proofs.«140822_j11527692222836_1_alg».proof.Proof.Spec
import Idealize.ShloMosaic.PureOps.Ideal.Laws

noncomputable section

namespace Cert.DistRescale

open Idealize.ShloMosaic

/-- The coercion of reals into the extended reals commutes with finite sums. -/
theorem coe_finset_sum {ι : Type} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The pattern 0x40000000 denotes the real number two. -/
theorem ofBits_two : Ideal.ofBits .f32 0x40000000#32 = ((2 : ℝ) : EReal) := by
  simp [Ideal.ofBits, Ideal.ieee, -EReal.coe_mul]; norm_num

/-- Over finite reals the expansion is the sum of the squared coordinate differences. -/
theorem sqd_coe (a b : Fin 2048 → Fin 16 → ℝ) (i j : Fin 2048) :
    sqd (fun i d => (a i d : EReal)) (fun i d => (b i d : EReal)) i j
      = ((∑ d : Fin 16, (a i d - b j d) ^ 2 : ℝ) : EReal) := by
  unfold sqd sqn cross
  rw [ofBits_two]
  simp only [← EReal.coe_mul, ← coe_finset_sum, ← EReal.coe_add, ← EReal.coe_sub]
  congr 1
  rw [Finset.mul_sum, ← Finset.sum_add_distrib, ← Finset.sum_sub_distrib]
  refine Finset.sum_congr rfl fun d _ => ?_
  ring

/-- On finite inputs the expansion of the squared distance is not negative. -/
theorem sqd_nonneg (q k : Pts) (hq : ∀ i d, ∃ r : ℝ, q i d = (r : EReal))
    (hk : ∀ i d, ∃ r : ℝ, k i d = (r : EReal)) (i j : Fin 2048) : 0 ≤ sqd q k i j := by
  choose a ha using hq
  choose b hb using hk
  have hq' : q = fun i d => (a i d : EReal) := funext fun i => funext fun d => ha i d
  have hk' : k = fun i d => (b i d : EReal) := funext fun i => funext fun d => hb i d
  rw [hq', hk', sqd_coe]
  exact EReal.coe_nonneg.2 (Finset.sum_nonneg fun d _ => sq_nonneg _)

/-- On finite inputs the clamp at zero is the identity, so the two distance families coincide. -/
theorem distK_eq_distR (q k : Pts) (hq : ∀ i d, ∃ r : ℝ, q i d = (r : EReal))
    (hk : ∀ i d, ∃ r : ℝ, k i d = (r : EReal)) : distK q k = distR q k := by
  funext i j
  unfold distK distR
  rw [Ideal.ofBits_zero_f32, max_eq_left (sqd_nonneg q k hq hk i j)]

/-- With a nonzero spread, a · (18 / s) and (a · 18) / s are both a · 18 · s⁻¹. -/
theorem outK_eq_outR (q k : Pts) (hq : ∀ i d, ∃ r : ℝ, q i d = (r : EReal))
    (hk : ∀ i d, ∃ r : ℝ, k i d = (r : EReal))
    (hs : spread (distR q k) ≠ 0) : outK q k = outR q k := by
  funext i j
  unfold outK outR
  rw [distK_eq_distR q k hq hk]
  unfold Ideal.div
  rw [if_neg hs, if_neg hs, mul_assoc]

end Cert.DistRescale

end
-- ==== Proof.RefSide.lean ====
/-
  The value of the reference computation on the extended reals, read element by element.

  Within a slice (h, b) the square-root stage at (i, j) is the distance sqrt(|q_i|² + |k_j|² - 2·⟨q_i, k_j⟩)
  between point i of the first family and point j of the second.  The maximum and the minimum over the two
  trailing axes are the supremum and the infimum of the slice's 2048 × 2048 distances: a fold of max from -∞
  (of min from +∞) over a finite set of indices has exactly the upper (lower) bounds of the values on that set,
  and the indices lying over (h, b) are exactly those whose two leading coordinates are h and b.  Their
  difference is the spread of the slice, and the result is -9 + ((dist - min) · 18) / spread.
-/
import proofs.«140822_j11527692222836_1_alg».proof.Proof.Spec
import proofs.«140822_j11527692222836_1_alg».proof.Proof.Gen.ReferenceIdeal.Read

noncomputable section

namespace Cert.DistRescale

open Idealize.ShloMosaic Cert.ReferenceIdeal Cert.ReferenceIdeal.Read

/-- The point of the first family read by the squared-norm sum at `(h, b, i, j)`. -/
private theorem idx_q (h : Fin 8) (b : Fin 4) (i j : Fin 2048) (k : Fin 16) :
    idx_main_v1 (idx_main_v2 (idx_main_v7 (ValueIdx.ix4 h b i j))) k = ValueIdx.ix4 h b i k :=
  funext fun a => Fin.ext (by match a with | ⟨0, _⟩ => rfl | ⟨1, _⟩ => rfl | ⟨2, _⟩ => rfl | ⟨3, _⟩ => rfl)

private theorem idx_k (h : Fin 8) (b : Fin 4) (i j : Fin 2048) (k : Fin 16) :
    idx_main_v4 (idx_main_v5 (idx_main_v8 (ValueIdx.ix4 h b i j))) k = ValueIdx.ix4 h b j k :=
  funext fun a => Fin.ext (by match a with | ⟨0, _⟩ => rfl | ⟨1, _⟩ => rfl | ⟨2, _⟩ => rfl | ⟨3, _⟩ => rfl)

private theorem idx_l (h : Fin 8) (b : Fin 4) (i j : Fin 2048) (k : Fin 16) :
    lidx_main_v6 (ValueIdx.ix4 h b i j) k = ValueIdx.ix4 h b i k :=
  funext fun a => Fin.ext (by match a with | ⟨0, _⟩ => rfl | ⟨1, _⟩ => rfl | ⟨2, _⟩ => rfl | ⟨3, _⟩ => rfl)

private theorem idx_r (h : Fin 8) (b : Fin 4) (i j : Fin 2048) (k : Fin 16) :
    ridx_main_v6 (ValueIdx.ix4 h b i j) k = ValueIdx.ix4 h b j k :=
  funext fun a => Fin.ext (by match a with | ⟨0, _⟩ => rfl | ⟨1, _⟩ => rfl | ⟨2, _⟩ => rfl | ⟨3, _⟩ => rfl)

/-- The square-root stage at `(h, b, i, j)` is the distance between point `i` of the first family and
    point `j` of the second, within the slice `(h, b)`. -/
theorem v13_ix4 (x0 x1 : (⟨4, ![8, 4, 2048, 16]⟩ : Shape).Idx → EReal) (h : Fin 8) (b : Fin 4) (i j : Fin 2048) :
    val_main_v13 (F := Ideal) x0 x1 (ValueIdx.ix4 h b i j) = distR (slice x0 h b) (slice x1 h b) i j := by
  rw [val_main_v13_apply, val_main_v12_apply, val_main_v9_apply, val_main_v11_apply, val_main_v10_apply,
    val_main_cst_1_apply, val_main_v6_apply, val_main_v7_apply, val_main_v2_apply, val_main_v1_apply,
    val_main_v8_apply, val_main_v5_apply, val_main_v4_apply, val_main_cst_apply, val_main_cst_0_apply]
  simp only [val_main_v0_apply, val_main_v3_apply, Ideal.hostUnary_sqrt_def, Ideal.subf_def, Ideal.addf_def,
    Ideal.mulf_def, Ideal.ofBits_def, Ideal.ofBits_zero_f32, zero_add, idx_q, idx_k, idx_l, idx_r]
  rfl

/-- An index of the [8, 4, 2048, 2048] array lies over `(h, b)` exactly when its two leading coordinates are `h` and `b`. -/
theorem drop_eq_iff (y : (⟨4, ![8, 4, 2048, 2048]⟩ : Shape).Idx) (h : Fin 8) (b : Fin 4) :
    Gen.reducesTo_S8x4x2048x2048_S8x4_d2_3.drop y = ValueIdx.ix2 h b ↔ ((y 0).val = h.val ∧ (y 1).val = b.val) := by
  have e0 := Shape.ReducesTo.drop_apply_val_of_eq Gen.reducesTo_S8x4x2048x2048_S8x4_d2_3 y 0 0
  have e1 := Shape.ReducesTo.drop_apply_val_of_eq Gen.reducesTo_S8x4x2048x2048_S8x4_d2_3 y 1 1
  constructor
  · intro e
    refine ⟨?_, ?_⟩
    · rw [← e0, e]
    · rw [← e1, e]
  · rintro ⟨h0, h1⟩
    funext a
    refine Fin.ext ?_
    match a with
    | ⟨0, _⟩ => exact e0.trans h0
    | ⟨1, _⟩ => exact e1.trans h1

/-- The maximum stage at `(h, b)` is the largest distance of the slice. -/
theorem v14_ix2 (x0 x1 : (⟨4, ![8, 4, 2048, 16]⟩ : Shape).Idx → EReal) (h : Fin 8) (b : Fin 4) :
    val_main_v14 (F := Ideal) x0 x1 (ValueIdx.ix2 h b) = gmax (distR (slice x0 h b) (slice x1 h b)) := by
  unfold val_main_v14
  rw [Host.reduce_eq_fold]
  refine eq_gmax _ _ fun z => ?_
  refine (Finset.fold_max_le (s := Finset.univ.filter fun i => Gen.reducesTo_S8x4x2048x2048_S8x4_d2_3.drop i = ValueIdx.ix2 h b) (f := val_main_v13 (F := Ideal) x0 x1) z).trans ?_
  have hbot : val_main_cst_2 (F := Ideal) (Shape.Idx.first Gen.h_S_) = ⊥ := by
    rw [val_main_cst_2_apply]; simp [Ideal.ofBits, Ideal.ieee]
  rw [hbot]
  constructor
  · rintro ⟨_, hx⟩ i j
    rw [← v13_ix4]
    exact hx _ (Finset.mem_filter.2 ⟨Finset.mem_univ _, (drop_eq_iff _ h b).2 ⟨rfl, rfl⟩⟩)
  · intro hz
    refine ⟨bot_le, fun y hy => ?_⟩
    obtain ⟨h0, h1⟩ := (drop_eq_iff y h b).1 (Finset.mem_filter.1 hy).2
    have e : y = ValueIdx.ix4 h b (y 2) (y 3) := funext fun a => Fin.ext (by
      match a with | ⟨0, _⟩ => exact h0 | ⟨1, _⟩ => exact h1 | ⟨2, _⟩ => rfl | ⟨3, _⟩ => rfl)
    exact (congrArg (val_main_v13 (F := Ideal) x0 x1) e).trans_le
      ((v13_ix4 x0 x1 h b (y 2) (y 3)).trans_le (hz _ _))

/-- The minimum stage at `(h, b)` is the smallest distance of the slice. -/
theorem v16_ix2 (x0 x1 : (⟨4, ![8, 4, 2048, 16]⟩ : Shape).Idx → EReal) (h : Fin 8) (b : Fin 4) :
    val_main_v16 (F := Ideal) x0 x1 (ValueIdx.ix2 h b) = gmin (distR (slice x0 h b) (slice x1 h b)) := by
  unfold val_main_v16
  rw [Host.reduce_eq_fold]
  refine eq_gmin _ _ fun z => ?_
  refine (Finset.le_fold_min (s := Finset.univ.filter fun i => Gen.reducesTo_S8x4x2048x2048_S8x4_d2_3.drop i = ValueIdx.ix2 h b) (f := val_main_v13 (F := Ideal) x0 x1) z).trans ?_
  have htop : val_main_cst_3 (F := Ideal) (Shape.Idx.first Gen.h_S_) = ⊤ := by
    rw [val_main_cst_3_apply]; simp [Ideal.ofBits, Ideal.ieee]
  rw [htop]
  constructor
  · rintro ⟨_, hx⟩ i j
    rw [← v13_ix4]
    exact hx _ (Finset.mem_filter.2 ⟨Finset.mem_univ _, (drop_eq_iff _ h b).2 ⟨rfl, rfl⟩⟩)
  · intro hz
    refine ⟨le_top, fun y hy => ?_⟩
    obtain ⟨h0, h1⟩ := (drop_eq_iff y h b).1 (Finset.mem_filter.1 hy).2
    have e : y = ValueIdx.ix4 h b (y 2) (y 3) := funext fun a => Fin.ext (by
      match a with | ⟨0, _⟩ => exact h0 | ⟨1, _⟩ => exact h1 | ⟨2, _⟩ => rfl | ⟨3, _⟩ => rfl)
    exact (hz _ _).trans_eq
      ((v13_ix4 x0 x1 h b (y 2) (y 3)).symm.trans (congrArg (val_main_v13 (F := Ideal) x0 x1) e).symm)

private theorem idx_15 (h : Fin 8) (b : Fin 4) :
    idx_main_v15 (ValueIdx.ix4 h b (0 : Fin 1) (0 : Fin 1)) = ValueIdx.ix2 h b :=
  funext fun a => Fin.ext (by match a with | ⟨0, _⟩ => rfl | ⟨1, _⟩ => rfl)

private theorem idx_17 (h : Fin 8) (b : Fin 4) :
    idx_main_v17 (ValueIdx.ix4 h b (0 : Fin 1) (0 : Fin 1)) = ValueIdx.ix2 h b :=
  funext fun a => Fin.ext (by match a with | ⟨0, _⟩ => rfl | ⟨1, _⟩ => rfl)

private theorem idx_18 (h : Fin 8) (b : Fin 4) (i j : Fin 2048) :
    idx_main_v18 (ValueIdx.ix4 h b i j) = ValueIdx.ix4 h b (0 : Fin 1) (0 : Fin 1) :=
  funext fun a => Fin.ext (by match a with | ⟨0, _⟩ => rfl | ⟨1, _⟩ => rfl | ⟨2, _⟩ => rfl | ⟨3, _⟩ => rfl)

private theorem idx_23 (h : Fin 8) (b : Fin 4) (i j : Fin 2048) :
    idx_main_v23 (ValueIdx.ix4 h b i j) = ValueIdx.ix4 h b (0 : Fin 1) (0 : Fin 1) :=
  funext fun a => Fin.ext (by match a with | ⟨0, _⟩ => rfl | ⟨1, _⟩ => rfl | ⟨2, _⟩ => rfl | ⟨3, _⟩ => rfl)

/-- The divisor of the rescaling at `(h, b)` is the spread of the slice's distances. -/
theorem ref_spread (x0 x1 : (⟨4, ![8, 4, 2048, 16]⟩ : Shape).Idx → EReal) (h : Fin 8) (b : Fin 4) :
    val_main_v22 (F := Ideal) x0 x1 (ValueIdx.ix4 h b 0 0) = spread (distR (slice x0 h b) (slice x1 h b)) := by
  rw [val_main_v22_apply, val_main_v15_apply, val_main_v17_apply, idx_15, idx_17, v14_ix2, v16_ix2]
  rfl

/-- The reference program's result is the product-first rescaled distance, slice by slice. -/
theorem ref_value (x0 x1 : (⟨4, ![8, 4, 2048, 16]⟩ : Shape).Idx → EReal) :
    val_main_v26 (F := Ideal) x0 x1 = GR x0 x1 := by
  funext y
  obtain ⟨h, b, i, j, rfl⟩ : ∃ (h : Fin 8) (b : Fin 4) (i j : Fin 2048), y = ValueIdx.ix4 h b i j :=
    ⟨_, _, _, _, ValueIdx.eq_ix4 y⟩
  rw [GR_ix4, val_main_v26_apply, val_main_v25_apply, val_main_cst_5_apply, val_main_v24_apply,
    val_main_v21_apply, val_main_v19_apply, val_main_v20_apply, val_main_cst_4_apply, val_main_v23_apply,
    val_main_v18_apply, val_main_v17_apply, idx_18, idx_23, idx_17, v13_ix4, v16_ix2, ref_spread]
  rfl

end Cert.DistRescale

end
-- ==== Proof.PreFacts.lean ====
/-
  What the precondition says, on the extended reals.

  The precondition is a conjunction of three statements over all entries: every entry of either input has
  absolute value below +∞, and in every slice the largest distance minus the smallest is different from zero.
  An extended real x with max(x, -x) < +∞ is neither -∞ nor +∞, hence a real number.  The divisor the
  precondition tests is formed by the same operations as the reference computation's own divisor, so it is the
  spread of the slice's distances.
-/
import proofs.«140822_j11527692222836_1_alg».proof.Proof.RefSide
import proofs.«140822_j11527692222836_1_alg».proof.Pre_finite_inputs
import proofs.«140822_j11527692222836_1_alg».proof.Proof.Gen.Pre_finite_inputs
import Idealize.ShloMosaic.Lib.ReduceAll

noncomputable section

namespace Cert.DistRescale

open Idealize.ShloMosaic

instance : Subsingleton (⟨0, ![]⟩ : Shape).Idx := ⟨fun a b => funext fun d => d.elim0⟩

/-- An extended real whose absolute value is below +∞ is a real number. -/
theorem exists_real_of_abs_lt (a : EReal)
    (h : FloatOps.cmpf (F := Ideal) (φ := .f32) .olt (FloatOps.hostAbsf a) (FloatOps.ofBits .f32 0x7F800000#32) = 1#1) :
    ∃ r : ℝ, a = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  have hlt : max a (-a) < ⊤ := by
    by_contra hn
    simp [Ideal.cmp, hn] at h
  induction a using EReal.rec with
  | bot => simp at hlt
  | coe r => exact ⟨r, rfl⟩
  | top => simp at hlt

/-- Two extended reals that compare as different are different. -/
theorem ne_of_une (a b : EReal) (h : FloatOps.cmpf (F := Ideal) (φ := .f32) .une a b = 1#1) : a ≠ b := by
  rw [Ideal.cmpf_def] at h
  intro hab
  simp [Ideal.cmp, hab] at h

/-- A conjunction over all entries of "differs from" that holds says every entry differs. -/
theorem ne_of_all_une {s u : Shape} {axes : List (Fin s.rank)} (V W : FVec Ideal s .f32) (init : IVec u 1)
    (r : s.ReducesTo axes (⟨0, ![]⟩ : Shape)) (hu : 0 < u.numel)
    (e : Host.reduce IntOp.andi (cmpf .une V W) init r hu ValueIdx.ix0 = 1#1) (i : s.Idx) : V i ≠ W i :=
  ne_of_une _ _ (Host.reduce_andi_all _ _ _ _ _ e i)

/-- Under the precondition every input entry is a real number and no slice's spread of distances is zero. -/
theorem pre_facts (x0 x1 : (⟨4, ![8, 4, 2048, 16]⟩ : Shape).Idx → EReal)
    (hpre : Cert.Pre_finite_inputs.fn (F := Ideal) x0 x1 = fun _ => 1#1) :
    (∀ y, ∃ r : ℝ, x0 y = (r : EReal)) ∧ (∀ y, ∃ r : ℝ, x1 y = (r : EReal)) ∧
    ∀ (h : Fin 8) (b : Fin 4), spread (distR (slice x0 h b) (slice x1 h b)) ≠ 0 := by
  have e := congrFun hpre ValueIdx.ix0
  unfold Cert.Pre_finite_inputs.fn Cert.Pre_finite_inputs.fn_part1 at e
  dsimp only at e
  unfold andi at e
  rw [IntOp.andi_eq_one, IntOp.andi_eq_one] at e
  obtain ⟨⟨e0, e1⟩, e2⟩ := e
  refine ⟨fun y => ?_, fun y => ?_, fun h b => ?_⟩
  · exact exists_real_of_abs_lt (x0 y) (Host.reduce_andi_all _ _ _ _ _ e0 y)
  · exact exists_real_of_abs_lt (x1 y) (Host.reduce_andi_all _ _ _ _ _ e1 y)
  · have hne := ne_of_all_une (Cert.ReferenceIdeal.Read.val_main_v22 (F := Ideal) x0 x1) _ _ _ _ e2
      (ValueIdx.ix4 h b (0 : Fin 1) (0 : Fin 1))
    rw [ref_spread] at hne
    exact fun h0 => hne (h0.trans Ideal.ofBits_zero_f32.symm)

end Cert.DistRescale

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibTileExtrema.lean ====
/-
  The smallest and the largest entry of one rectangular tile, read off a vector reduction, and the unit axes
  around it.

  A minimum-reduction of a [1, a, b] array over its two long axes, started from the f32 word of +∞, has exactly
  the lower bounds of the tile: a number is below it iff it is below every entry (`le_minAll_iff`).  The
  maximum-reduction from -∞ has exactly the tile's upper bounds (`maxAll_le_iff`).  Carried this way a running
  minimum over several tiles needs no algebra of finite sets: only which entries each side ranges over.
  Beside them: the [1] result seen as [1, 1, 1] and read at its one position; a [1, 1] array spread to [a, b];
  and two leading unit axes added to or dropped from a matrix, each read at coordinates.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibTileExtrema

open Idealize.ShloMosaic Idealize.ShloMosaic.ValueIdx

variable {α : Type}

/-! ## Unit axes -/

/-- A [1, 1, a, b] array seen as [a, b] reads, at (i, j), the array at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array seen as [1, 1, a, b] reads, at (u, v, i, j), the array at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1] array spread to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A [1] array seen as [1, 1, 1] and read at its one position is the array's one entry. -/
theorem extractAt_cast_1_111 (v : (⟨1, ![1]⟩ : Shape).Idx → α) (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ v h) hp = v (ix1 (0 : Fin 1)) := by
  unfold extractAt
  refine shapeCast_apply v h _ _ ?_
  rw [Shape.rowMajor_val_one, Shape.rowMajor_val_three]
  rfl

/-! ## The extrema of a tile -/

/-- Every index of a [1, a, b] array is (0, i, j). -/
theorem eq_ix3_zero {a b : ℕ} (x : (⟨3, ![1, a, b]⟩ : Shape).Idx) : ∃ (i : Fin a) (j : Fin b), x = ix3 (0 : Fin 1) i j := by
  refine ⟨x 1, x 2, ?_⟩
  have h0 : x 0 = (0 : Fin 1) := Fin.ext (by
    have hlt : (x 0).val < 1 := (x 0).isLt
    show (x 0).val = 0
    omega)
  have e := eq_ix3 x
  rw [h0] at e
  exact e

/-- Every index of a [1] array is 0. -/
theorem eq_ix1_zero (y : (⟨1, ![1]⟩ : Shape).Idx) : y = ix1 (0 : Fin 1) := by
  rw [eq_ix1 y]
  exact congrArg ix1 (Fin.ext (by
    have hlt : (y 0).val < 1 := (y 0).isLt
    show (y 0).val = 0
    omega))

/-- A number is below the minimum of a whole [1, a, b] tile, taken from +∞, iff it is below every entry. -/
theorem le_minAll_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.minimumf.neutral .f32 hφ) (htop : Ideal.ofBits .f32 acc = (⊤ : EReal)) (z : EReal) :
    z ≤ multiReduction .minimumf [1, 2] (⟨1, ![1]⟩ : Shape) src acc h hφ hacc (ix1 (0 : Fin 1))
      ↔ ∀ (i : Fin a) (j : Fin b), z ≤ src (ix3 (0 : Fin 1) i j) := by
  rw [multiReduction_minimumf_eq_fold]
  refine (Finset.le_fold_min (b := (Ideal.ofBits .f32 acc : EReal)) (f := fun x => (src x : EReal)) z).trans ?_
  rw [htop]
  constructor
  · rintro ⟨-, hx⟩ i j
    exact hx _ (Finset.mem_filter.2 ⟨Finset.mem_univ _, (eq_ix1_zero _)⟩)
  · intro hx
    refine ⟨le_top, fun x _ => ?_⟩
    obtain ⟨i, j, rfl⟩ := eq_ix3_zero x
    exact hx i j

/-- The maximum of a whole [1, a, b] tile, taken from -∞, is below a number iff every entry is. -/
theorem maxAll_le_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.maximumf.neutral .f32 hφ) (hbot : Ideal.ofBits .f32 acc = (⊥ : EReal)) (z : EReal) :
    multiReduction .maximumf [1, 2] (⟨1, ![1]⟩ : Shape) src acc h hφ hacc (ix1 (0 : Fin 1)) ≤ z
      ↔ ∀ (i : Fin a) (j : Fin b), src (ix3 (0 : Fin 1) i j) ≤ z := by
  rw [multiReduction_maximumf_eq_fold]
  refine (Finset.fold_max_le (b := (Ideal.ofBits .f32 acc : EReal)) (f := fun x => (src x : EReal)) z).trans ?_
  rw [hbot]
  constructor
  · rintro ⟨-, hx⟩ i j
    exact hx _ (Finset.mem_filter.2 ⟨Finset.mem_univ _, (eq_ix1_zero _)⟩)
  · intro hx
    refine ⟨bot_le, fun x _ => ?_⟩
    obtain ⟨i, j, rfl⟩ := eq_ix3_zero x
    exact hx i j

/-- The f32 word of +∞ denotes the top of the extended reals, and that of -∞ the bottom. -/
theorem pinf32_eq_top : Ideal.ofBits .f32 0x7F800000#32 = (⊤ : EReal) := by
  simp [Ideal.ofBits, Ideal.ieee]

theorem ninf32_eq_bot : Ideal.ofBits .f32 0xFF800000#32 = (⊥ : EReal) := by
  simp [Ideal.ofBits, Ideal.ieee]

end Cert.LibTileExtrema

end
-- ==== Proof.KernelTiles.lean ====
/-
  The arithmetic of the kernel body, tile by tile.

  The body cuts the 2048 rows of the first block of points into eight tiles of 256 rows.  For each tile it forms the
  clamped distances to all 2048 points of the second block — |q_i|² + |k_j|² - 2·⟨q_i, k_j⟩, clamped at zero, square
  root — and the tile's smallest and largest distance; it carries a running minimum and maximum from tile to tile.
  This module reads each of those values at coordinates, as the functions of the two blocks of points stated in the
  specification: a tile's entry (r, j) is the clamped distance between points (offset + r) and j; a number is below a
  tile's minimum iff it is below the distances of the tile's rows; and so on along the running minimum and maximum.
-/
import proofs.«140822_j11527692222836_1_alg».proof.Proof.Gen.KernelIdeal.Skeleton
import proofs.«140822_j11527692222836_1_alg».proof.Proof.Spec
import proofs.«140822_j11527692222836_1_alg».proof.Proof.LibPlainDot
import proofs.«140822_j11527692222836_1_alg».proof.Proof.LibUnitAxes
import proofs.«140822_j11527692222836_1_alg».proof.Proof.LibLaneSums
import proofs.«140822_j11527692222836_1_alg».proof.Proof.LibTileExtrema
import Idealize.ShloMosaic.Lib.ValueLayout

noncomputable section

namespace Cert.DistRescale

open Idealize.ShloMosaic Idealize.ShloMosaic.ValueIdx Cert.KernelIdeal Cert.KernelIdeal.Gen

/-- The 2048 points of one staged [1, 1, 2048, 16] input block. -/
def blockPts (x : Vec Ideal S1x1x2048x16 .f32) : Pts := fun i d => x (ix4 (0 : Fin 1) (0 : Fin 1) i d)

/-- Row `r` of the tile that starts at row `o`. -/
def tileRow (o : ℕ) (ho : o + 256 ≤ 2048) (r : Fin 256) : Fin 2048 := ⟨o + r.val, by have := r.isLt; omega⟩

/-! ## The arrays derived once from the two blocks -/

/-- The first block as a matrix: row i, coordinate d. -/
theorem rows_apply (v0 : Vec Ideal S1x1x2048x16 .f32) (i : Fin 2048) (d : Fin 16) :
    k0_pay3 (F := Ideal) v0 (ix2 i d) = blockPts v0 i d :=
  LibTileExtrema.shapeCast_11ab_ab_apply v0 _ i d

theorem rows_apply' (v2 : Vec Ideal S1x1x2048x16 .f32) (i : Fin 2048) (d : Fin 16) :
    k0_pay4 (F := Ideal) v2 (ix2 i d) = blockPts v2 i d :=
  LibTileExtrema.shapeCast_11ab_ab_apply v2 _ i d

/-- The column of squared norms of the first block. -/
theorem sqcol_apply (v0 : Vec Ideal S1x1x2048x16 .f32) (i : Fin 2048) :
    k0_pay5 (F := Ideal) v0 (ix2 i (0 : Fin 1)) = sqn (blockPts v0) i := by
  unfold k0_pay5
  refine (LibLaneSums.shapeCast_a_a1_apply _ _ i 0).trans ?_
  refine (LibLaneSums.sum_last_apply _ _ _ _ _ i).trans ?_
  unfold sqn
  refine Finset.sum_congr rfl fun d _ => ?_
  show k0_pay3 (F := Ideal) v0 (ix2 i d) * k0_pay3 (F := Ideal) v0 (ix2 i d) = _
  rw [rows_apply]

/-- The row of squared norms of the second block. -/
theorem sqrow_apply (v2 : Vec Ideal S1x1x2048x16 .f32) (j : Fin 2048) :
    k0_pay6 (F := Ideal) v2 (ix2 (0 : Fin 1) j) = sqn (blockPts v2) j := by
  unfold k0_pay6
  refine (shapeCast_a_1a_apply _ _ 0 j).trans ?_
  refine (LibLaneSums.sum_last_apply _ _ _ _ _ j).trans ?_
  unfold sqn
  refine Finset.sum_congr rfl fun d _ => ?_
  show k0_pay4 (F := Ideal) v2 (ix2 j d) * k0_pay4 (F := Ideal) v2 (ix2 j d) = _
  rw [rows_apply']

/-- The second block transposed: coordinate d, point j. -/
theorem transposed_apply (v2 : Vec Ideal S1x1x2048x16 .f32) (d : Fin 16) (j : Fin 2048) :
    k0_pay7 (F := Ideal) v2 (ix2 d j) = blockPts v2 j d := by
  unfold k0_pay7
  refine (transpose_ix2_apply _ _ d j).trans ?_
  exact rows_apply' v2 j d

/-! ## One tile of clamped distances -/

/-- The expansion |q_i|² + |k_j|² - 2·⟨q_i, k_j⟩ on the rows of the tile at offset `o`, from the matrix of rows, the column
    and the row of squared norms and the transposed second block. -/
theorem tile_sqd_apply (q k : Pts) (o : ℕ) (ho : o + 256 ≤ 2048)
    (v1 : FVec Ideal S2048x16 .f32) (v6 : FVec Ideal S2048x1 .f32) (v9 : FVec Ideal S1x2048 .f32) (v10 : FVec Ideal S16x2048 .f32)
    (hs1 : S2048x16.Slices ![o, 0] S256x16) (hs6 : S2048x1.Slices ![o, 0] S256x1)
    (hb1 : S256x1.Broadcasts S256x2048) (hb2 : S1x2048.Broadcasts S256x2048)
    (hv1 : ∀ i d, v1 (ix2 i d) = q i d) (hv6 : ∀ i, v6 (ix2 i (0 : Fin 1)) = sqn q i)
    (hv9 : ∀ j, v9 (ix2 (0 : Fin 1) j) = sqn k j) (hv10 : ∀ d j, v10 (ix2 d j) = k j d) (r : Fin 256) (col : Fin 2048) :
    subf (addf (broadcastTo S256x2048 (extractStridedSlice S256x1 ![o, 0] v6 hs6) hb1) (broadcastTo S256x2048 v9 hb2))
        (mulf (broadcast S256x2048 (Scalar.ofBits (F := Ideal) .f32 0x40000000#32))
          (matmul dot_S256x16_S16x2048_S256x2048_1_0_0_1_n_n none (extractStridedSlice S256x16 ![o, 0] v1 hs1) v10
            (constant S256x2048 .f32 0x00000000#32))) (ix2 r col)
      = sqd q k (tileRow o ho r) col := by
  show (broadcastTo S256x2048 (extractStridedSlice S256x1 ![o, 0] v6 hs6) hb1 (ix2 r col) + broadcastTo S256x2048 v9 hb2 (ix2 r col))
      - Ideal.ofBits .f32 0x40000000#32 * FloatOps.matmul dot_S256x16_S16x2048_S256x2048_1_0_0_1_n_n none
          (extractStridedSlice S256x16 ![o, 0] v1 hs1) v10 (constant S256x2048 .f32 0x00000000#32) (ix2 r col) = _
  rw [LibUnitAxes.broadcastTo_a1_ab_apply, broadcastTo_1b_ab_apply,
    slice2_axis0_apply o v6 hs6 r 0 (tileRow o ho r) rfl, hv6, hv9]
  rw [LibPlainDot.matmul_zero_apply dot_S256x16_S16x2048_S256x2048_1_0_0_1_n_n rfl rfl rfl rfl (fun _ _ => rfl) (fun _ _ => rfl)]
  unfold sqd cross
  refine congrArg (fun s => (sqn q (tileRow o ho r) + sqn k col) - Ideal.ofBits .f32 0x40000000#32 * s) ?_
  refine Finset.sum_congr rfl fun d _ => ?_
  rw [slice2_axis0_apply o v1 hs1 r d (tileRow o ho r) rfl, hv1, hv10]

/-- The clamped distance on the rows of the tile at offset `o`. -/
theorem tile_dist_apply (q k : Pts) (o : ℕ) (ho : o + 256 ≤ 2048)
    (v1 : FVec Ideal S2048x16 .f32) (v6 : FVec Ideal S2048x1 .f32) (v9 : FVec Ideal S1x2048 .f32) (v10 : FVec Ideal S16x2048 .f32)
    (hs1 : S2048x16.Slices ![o, 0] S256x16) (hs6 : S2048x1.Slices ![o, 0] S256x1)
    (hb1 : S256x1.Broadcasts S256x2048) (hb2 : S1x2048.Broadcasts S256x2048)
    (hv1 : ∀ i d, v1 (ix2 i d) = q i d) (hv6 : ∀ i, v6 (ix2 i (0 : Fin 1)) = sqn q i)
    (hv9 : ∀ j, v9 (ix2 (0 : Fin 1) j) = sqn k j) (hv10 : ∀ d j, v10 (ix2 d j) = k j d) (r : Fin 256) (col : Fin 2048) :
    sqrt (maximumf
        (subf (addf (broadcastTo S256x2048 (extractStridedSlice S256x1 ![o, 0] v6 hs6) hb1) (broadcastTo S256x2048 v9 hb2))
          (mulf (broadcast S256x2048 (Scalar.ofBits (F := Ideal) .f32 0x40000000#32))
            (matmul dot_S256x16_S16x2048_S256x2048_1_0_0_1_n_n none (extractStridedSlice S256x16 ![o, 0] v1 hs1) v10
              (constant S256x2048 .f32 0x00000000#32))))
        (broadcast S256x2048 (Scalar.ofBits (F := Ideal) .f32 0x00000000#32))) (ix2 r col)
      = distK q k (tileRow o ho r) col := by
  have e := tile_sqd_apply q k o ho v1 v6 v9 v10 hs1 hs6 hb1 hb2 hv1 hv6 hv9 hv10 r col
  show Ideal.sqrt (max _ (Ideal.ofBits .f32 0x00000000#32)) = _
  rw [e]
  rfl

/-- What the body derives once from the two blocks: the matrix of rows and the column of squared norms of the first, the
    row of squared norms and the transpose of the second. -/
structure Derived (q k : Pts) (v1 : FVec Ideal S2048x16 .f32) (v6 : FVec Ideal S2048x1 .f32) (v9 : FVec Ideal S1x2048 .f32)
    (v10 : FVec Ideal S16x2048 .f32) : Prop where
  rows : ∀ i d, v1 (ix2 i d) = q i d
  sqcol : ∀ i, v6 (ix2 i (0 : Fin 1)) = sqn q i
  sqrow : ∀ j, v9 (ix2 (0 : Fin 1) j) = sqn k j
  tr : ∀ d j, v10 (ix2 d j) = k j d

theorem derived_of_blocks (v0 v2 : Vec Ideal S1x1x2048x16 .f32) :
    Derived (blockPts v0) (blockPts v2) (k0_pay3 (F := Ideal) v0) (k0_pay5 (F := Ideal) v0) (k0_pay6 (F := Ideal) v2) (k0_pay7 (F := Ideal) v2) :=
  ⟨rows_apply v0, sqcol_apply v0, sqrow_apply v2, transposed_apply v2⟩

section Tiles

variable {q k : Pts} {v1 : FVec Ideal S2048x16 .f32} {v6 : FVec Ideal S2048x1 .f32} {v9 : FVec Ideal S1x2048 .f32}
  {v10 : FVec Ideal S16x2048 .f32} (H : Derived q k v1 v6 v9 v10)

include H

theorem tile1_apply (r : Fin 256) (col : Fin 2048) :
    k0_pay14 (F := Ideal) v1 v6 v9 v10 (ix2 r col) = distK q k (tileRow 256 (by norm_num) r) col := by
  unfold k0_pay14
  exact tile_dist_apply q k 256 _ v1 v6 v9 v10 _ _ _ _ H.rows H.sqcol H.sqrow H.tr r col

theorem tile2_apply (r : Fin 256) (col : Fin 2048) :
    k0_pay18 (F := Ideal) v1 v6 v9 v10 (ix2 r col) = distK q k (tileRow 512 (by norm_num) r) col := by
  unfold k0_pay18
  exact tile_dist_apply q k 512 _ v1 v6 v9 v10 _ _ _ _ H.rows H.sqcol H.sqrow H.tr r col

theorem tile3_apply (r : Fin 256) (col : Fin 2048) :
    k0_pay21 (F := Ideal) v1 v6 v9 v10 (ix2 r col) = distK q k (tileRow 768 (by norm_num) r) col := by
  unfold k0_pay21
  exact tile_dist_apply q k 768 _ v1 v6 v9 v10 _ _ _ _ H.rows H.sqcol H.sqrow H.tr r col

theorem tile4_apply (r : Fin 256) (col : Fin 2048) :
    k0_pay27 (F := Ideal) (k0_pay25 v1 v6 v9 v10) k0_pay26 (ix2 r col) = distK q k (tileRow 1024 (by norm_num) r) col := by
  unfold k0_pay27 k0_pay25 k0_pay26
  exact tile_dist_apply q k 1024 _ v1 v6 v9 v10 _ _ _ _ H.rows H.sqcol H.sqrow H.tr r col

theorem tile5_apply (r : Fin 256) (col : Fin 2048) :
    k0_pay29 (F := Ideal) v1 v6 v9 v10 (ix2 r col) = distK q k (tileRow 1280 (by norm_num) r) col := by
  unfold k0_pay29
  exact tile_dist_apply q k 1280 _ v1 v6 v9 v10 _ _ _ _ H.rows H.sqcol H.sqrow H.tr r col

theorem tile6_apply (r : Fin 256) (col : Fin 2048) :
    k0_pay35 (F := Ideal) v9 v10 (k0_pay33 v1) (k0_pay34 v6) (constant S256x2048 .f32 0x00000000#32) (ix2 r col)
      = distK q k (tileRow 1536 (by norm_num) r) col := by
  unfold k0_pay35 k0_pay33 k0_pay34
  exact tile_dist_apply q k 1536 _ v1 v6 v9 v10 _ _ _ _ H.rows H.sqcol H.sqrow H.tr r col

theorem tile7_apply (r : Fin 256) (col : Fin 2048) :
    k0_pay39 (F := Ideal) v1 v6 v9 v10 (ix2 r col) = distK q k (tileRow 1792 (by norm_num) r) col := by
  unfold k0_pay39
  exact tile_dist_apply q k 1792 _ v1 v6 v9 v10 _ _ _ _ H.rows H.sqcol H.sqrow H.tr r col

end Tiles

theorem tile0_apply (v0 v2 : Vec Ideal S1x1x2048x16 .f32) (r : Fin 256) (col : Fin 2048) :
    k0_pay10 (F := Ideal) v0 v2 (ix2 r col) = distK (blockPts v0) (blockPts v2) (tileRow 0 (by norm_num) r) col := by
  have H := derived_of_blocks v0 v2
  unfold k0_pay10
  exact tile_dist_apply _ _ 0 _ _ _ _ _ _ _ _ _ H.rows H.sqcol H.sqrow H.tr r col

/-! ## The smallest and largest entry of a tile -/

/-- A number is below the minimum of a [1, 256, 2048] tile, read as the body reads it, iff it is below every entry. -/
theorem le_tileMin3_iff (X : FVec Ideal S1x256x2048 .f32) (hr : S1x256x2048.Reduces [1, 2] S1) (hc1 : S1.ShapeCasts S1x1x1)
    (hp : ∀ a, (![0, 0, 0] : Fin 3 → ℕ) a < S1x1x1.size a) (z : EReal) :
    z ≤ broadcast S1x1 (extractAt ![0, 0, 0] (shapeCast S1x1x1
          (multiReduction .minimumf [1, 2] S1 X 0x7F800000#32 hr (.inl rfl) rfl) hc1) hp) (ix2 (0 : Fin 1) (0 : Fin 1))
      ↔ ∀ (r : Fin 256) (col : Fin 2048), z ≤ X (ix3 (0 : Fin 1) r col) := by
  rw [broadcast_apply, LibTileExtrema.extractAt_cast_1_111]
  exact LibTileExtrema.le_minAll_iff X _ hr _ _ LibTileExtrema.pinf32_eq_top z

/-- The same for a [256, 2048] tile given a leading unit axis first. -/
theorem le_tileMin_iff (X : FVec Ideal S256x2048 .f32) (hc : S256x2048.ShapeCasts S1x256x2048) (hr : S1x256x2048.Reduces [1, 2] S1)
    (hc1 : S1.ShapeCasts S1x1x1) (hp : ∀ a, (![0, 0, 0] : Fin 3 → ℕ) a < S1x1x1.size a) (z : EReal) :
    z ≤ broadcast S1x1 (extractAt ![0, 0, 0] (shapeCast S1x1x1
          (multiReduction .minimumf [1, 2] S1 (shapeCast S1x256x2048 X hc) 0x7F800000#32 hr (.inl rfl) rfl) hc1) hp) (ix2 (0 : Fin 1) (0 : Fin 1))
      ↔ ∀ (r : Fin 256) (col : Fin 2048), z ≤ X (ix2 r col) := by
  rw [le_tileMin3_iff]
  simp only [shapeCast_ab_1ab_apply]

/-- The maximum of a [1, 256, 2048] tile, read as the body reads it, is below a number iff every entry is. -/
theorem tileMax3_le_iff (X : FVec Ideal S1x256x2048 .f32) (hr : S1x256x2048.Reduces [1, 2] S1) (hc1 : S1.ShapeCasts S1x1x1)
    (hp : ∀ a, (![0, 0, 0] : Fin 3 → ℕ) a < S1x1x1.size a) (z : EReal) :
    broadcast S1x1 (extractAt ![0, 0, 0] (shapeCast S1x1x1
          (multiReduction .maximumf [1, 2] S1 X 0xFF800000#32 hr (.inl rfl) rfl) hc1) hp) (ix2 (0 : Fin 1) (0 : Fin 1)) ≤ z
      ↔ ∀ (r : Fin 256) (col : Fin 2048), X (ix3 (0 : Fin 1) r col) ≤ z := by
  rw [broadcast_apply, LibTileExtrema.extractAt_cast_1_111]
  exact LibTileExtrema.maxAll_le_iff X _ hr _ _ LibTileExtrema.ninf32_eq_bot z

theorem tileMax_le_iff (X : FVec Ideal S256x2048 .f32) (hc : S256x2048.ShapeCasts S1x256x2048) (hr : S1x256x2048.Reduces [1, 2] S1)
    (hc1 : S1.ShapeCasts S1x1x1) (hp : ∀ a, (![0, 0, 0] : Fin 3 → ℕ) a < S1x1x1.size a) (z : EReal) :
    broadcast S1x1 (extractAt ![0, 0, 0] (shapeCast S1x1x1
          (multiReduction .maximumf [1, 2] S1 (shapeCast S1x256x2048 X hc) 0xFF800000#32 hr (.inl rfl) rfl) hc1) hp) (ix2 (0 : Fin 1) (0 : Fin 1)) ≤ z
      ↔ ∀ (r : Fin 256) (col : Fin 2048), X (ix2 r col) ≤ z := by
  rw [tileMax3_le_iff]
  simp only [shapeCast_ab_1ab_apply]

/-! ## Bounds over a range of rows -/

/-- `z` is below every entry of `f` on the rows from `lo` up to `hi`. -/
def RowsGE (f : Fin 2048 → Fin 2048 → EReal) (z : EReal) (lo hi : ℕ) : Prop :=
  ∀ i : Fin 2048, lo ≤ i.val → i.val < hi → ∀ j, z ≤ f i j

/-- Every entry of `f` on the rows from `lo` up to `hi` is below `z`. -/
def RowsLE (f : Fin 2048 → Fin 2048 → EReal) (z : EReal) (lo hi : ℕ) : Prop :=
  ∀ i : Fin 2048, lo ≤ i.val → i.val < hi → ∀ j, f i j ≤ z

theorem rowsGE_tile (f : Fin 2048 → Fin 2048 → EReal) (z : EReal) (o : ℕ) (ho : o + 256 ≤ 2048) :
    (∀ (r : Fin 256) (col : Fin 2048), z ≤ f (tileRow o ho r) col) ↔ RowsGE f z o (o + 256) := by
  constructor
  · intro h i hlo hhi j
    have e : tileRow o ho ⟨i.val - o, by omega⟩ = i := Fin.ext (by show o + (i.val - o) = i.val; omega)
    have := h ⟨i.val - o, by omega⟩ j
    rwa [e] at this
  · intro h r col
    exact h _ (by show o ≤ o + r.val; omega) (by show o + r.val < o + 256; have := r.isLt; omega) col

theorem rowsLE_tile (f : Fin 2048 → Fin 2048 → EReal) (z : EReal) (o : ℕ) (ho : o + 256 ≤ 2048) :
    (∀ (r : Fin 256) (col : Fin 2048), f (tileRow o ho r) col ≤ z) ↔ RowsLE f z o (o + 256) := by
  constructor
  · intro h i hlo hhi j
    have e : tileRow o ho ⟨i.val - o, by omega⟩ = i := Fin.ext (by show o + (i.val - o) = i.val; omega)
    have := h ⟨i.val - o, by omega⟩ j
    rwa [e] at this
  · intro h r col
    exact h _ (by show o ≤ o + r.val; omega) (by show o + r.val < o + 256; have := r.isLt; omega) col

theorem rowsGE_append (f : Fin 2048 → Fin 2048 → EReal) (z : EReal) (a b c : ℕ) (hab : a ≤ b) (hbc : b ≤ c) :
    RowsGE f z a b ∧ RowsGE f z b c ↔ RowsGE f z a c := by
  constructor
  · rintro ⟨h1, h2⟩ i hlo hhi j
    by_cases h : i.val < b
    · exact h1 i hlo h j
    · exact h2 i (by omega) hhi j
  · intro h
    exact ⟨fun i hlo hhi j => h i hlo (by omega) j, fun i hlo hhi j => h i (by omega) hhi j⟩

theorem rowsLE_append (f : Fin 2048 → Fin 2048 → EReal) (z : EReal) (a b c : ℕ) (hab : a ≤ b) (hbc : b ≤ c) :
    RowsLE f z a b ∧ RowsLE f z b c ↔ RowsLE f z a c := by
  constructor
  · rintro ⟨h1, h2⟩ i hlo hhi j
    by_cases h : i.val < b
    · exact h1 i hlo h j
    · exact h2 i (by omega) hhi j
  · intro h
    exact ⟨fun i hlo hhi j => h i hlo (by omega) j, fun i hlo hhi j => h i (by omega) hhi j⟩

theorem rowsGE_all (f : Fin 2048 → Fin 2048 → EReal) (z : EReal) : RowsGE f z 0 2048 ↔ ∀ i j, z ≤ f i j :=
  ⟨fun h i j => h i (Nat.zero_le _) i.isLt j, fun h i _ _ j => h i j⟩

theorem rowsLE_all (f : Fin 2048 → Fin 2048 → EReal) (z : EReal) : RowsLE f z 0 2048 ↔ ∀ i j, f i j ≤ z :=
  ⟨fun h i j => h i (Nat.zero_le _) i.isLt j, fun h i _ _ j => h i j⟩

/-! ## The rescaled output piece -/

/-- One piece of the output: -9 plus the offset from the running minimum times the scale, with two unit axes in front. -/
theorem rescale_apply (mn sc : FVec Ideal S1x1 .f32) (X : FVec Ideal S256x2048 .f32) (hb : S1x1.Broadcasts S256x2048)
    (hc : S256x2048.ShapeCasts S1x1x256x2048) (u v : Fin 1) (r : Fin 256) (col : Fin 2048) :
    shapeCast S1x1x256x2048
        (addf (broadcast S256x2048 (Scalar.ofBits (F := Ideal) .f32 0xC1100000#32))
          (mulf (subf X (broadcastTo S256x2048 mn hb)) (broadcastTo S256x2048 sc hb))) hc (ix4 u v r col)
      = Ideal.ofBits .f32 0xC1100000#32
          + (X (ix2 r col) - mn (ix2 (0 : Fin 1) (0 : Fin 1))) * sc (ix2 (0 : Fin 1) (0 : Fin 1)) := by
  rw [LibTileExtrema.shapeCast_ab_11ab_apply]
  show Ideal.ofBits .f32 0xC1100000#32
      + (X (ix2 r col) - broadcastTo S256x2048 mn hb (ix2 r col)) * broadcastTo S256x2048 sc hb (ix2 r col) = _
  rw [LibTileExtrema.broadcastTo_11_ab_apply, LibTileExtrema.broadcastTo_11_ab_apply]

/-! ## The running minimum and maximum, tile after tile -/

theorem pinf_apply : k0_pay8 (F := Ideal) (ix2 (0 : Fin 1) (0 : Fin 1)) = (⊤ : EReal) :=
  LibTileExtrema.pinf32_eq_top

theorem ninf_apply : k0_pay9 (F := Ideal) (ix2 (0 : Fin 1) (0 : Fin 1)) = (⊥ : EReal) :=
  LibTileExtrema.ninf32_eq_bot

theorem le_tile0Min_iff (v0 v2 : Vec Ideal S1x1x2048x16 .f32) (z : EReal) :
    z ≤ k0_pay12 (F := Ideal) v0 v2 (ix2 (0 : Fin 1) (0 : Fin 1)) ↔ RowsGE (distK (blockPts v0) (blockPts v2)) z 0 256 := by
  unfold k0_pay12
  dsimp only
  rw [le_tileMin_iff]
  simp only [tile0_apply]
  exact rowsGE_tile _ z 0 (by norm_num)

theorem tile0Max_le_iff (v0 v2 : Vec Ideal S1x1x2048x16 .f32) (z : EReal) :
    k0_pay13 (F := Ideal) v0 v2 (ix2 (0 : Fin 1) (0 : Fin 1)) ≤ z ↔ RowsLE (distK (blockPts v0) (blockPts v2)) z 0 256 := by
  unfold k0_pay13
  dsimp only
  rw [tileMax_le_iff]
  simp only [tile0_apply]
  exact rowsLE_tile _ z 0 (by norm_num)

section Running

variable {q k : Pts} {v1 : FVec Ideal S2048x16 .f32} {v6 : FVec Ideal S2048x1 .f32} {v9 : FVec Ideal S1x2048 .f32}
  {v10 : FVec Ideal S16x2048 .f32} (H : Derived q k v1 v6 v9 v10)

include H

theorem tile2cast_apply (r : Fin 256) (col : Fin 2048) :
    k0_pay20 (F := Ideal) v1 v6 v9 v10 (ix3 (0 : Fin 1) r col) = distK q k (tileRow 512 (by norm_num) r) col := by
  unfold k0_pay20
  rw [shapeCast_ab_1ab_apply, tile2_apply H]

theorem tile7cast_apply (r : Fin 256) (col : Fin 2048) :
    k0_pay42 (F := Ideal) v1 v6 v9 v10 (ix3 (0 : Fin 1) r col) = distK q k (tileRow 1792 (by norm_num) r) col := by
  unfold k0_pay42
  rw [shapeCast_ab_1ab_apply, tile7_apply H]

theorem le_pay16_iff (t m0 : FVec Ideal S1x1 .f32) (z : EReal) :
    z ≤ k0_pay16 (F := Ideal) v1 v6 v9 v10 t m0 (ix2 (0 : Fin 1) (0 : Fin 1))
      ↔ (z ≤ t (ix2 (0 : Fin 1) (0 : Fin 1)) ∧ z ≤ m0 (ix2 (0 : Fin 1) (0 : Fin 1))) ∧ RowsGE (distK q k) z 256 512 := by
  unfold k0_pay16
  dsimp only
  rw [minimumf_apply, minimumf_apply, le_min_iff, le_min_iff, le_tileMin_iff]
  simp only [tile1_apply H]
  rw [rowsGE_tile (distK q k) z 256 (by norm_num)]

theorem pay17_le_iff (t m0 : FVec Ideal S1x1 .f32) (z : EReal) :
    k0_pay17 (F := Ideal) v1 v6 v9 v10 t m0 (ix2 (0 : Fin 1) (0 : Fin 1)) ≤ z
      ↔ (t (ix2 (0 : Fin 1) (0 : Fin 1)) ≤ z ∧ m0 (ix2 (0 : Fin 1) (0 : Fin 1)) ≤ z) ∧ RowsLE (distK q k) z 256 512 := by
  unfold k0_pay17
  dsimp only
  rw [maximumf_apply, maximumf_apply, max_le_iff, max_le_iff, tileMax_le_iff]
  simp only [tile1_apply H]
  rw [rowsLE_tile (distK q k) z 256 (by norm_num)]

theorem le_pay23_iff (m : FVec Ideal S1x1 .f32) (X3 : FVec Ideal S1x256x2048 .f32) (z : EReal) :
    z ≤ k0_pay23 (F := Ideal) v1 v6 v9 v10 m X3 (ix2 (0 : Fin 1) (0 : Fin 1))
      ↔ (z ≤ m (ix2 (0 : Fin 1) (0 : Fin 1)) ∧ ∀ (r : Fin 256) (col : Fin 2048), z ≤ X3 (ix3 (0 : Fin 1) r col))
          ∧ RowsGE (distK q k) z 768 1024 := by
  unfold k0_pay23
  dsimp only
  rw [minimumf_apply, minimumf_apply, le_min_iff, le_min_iff, le_tileMin_iff, le_tileMin3_iff]
  simp only [tile3_apply H]
  rw [rowsGE_tile (distK q k) z 768 (by norm_num)]

theorem pay24_le_iff (m : FVec Ideal S1x1 .f32) (X : FVec Ideal S256x2048 .f32) (z : EReal) :
    k0_pay24 (F := Ideal) v1 v6 v9 v10 m X (ix2 (0 : Fin 1) (0 : Fin 1)) ≤ z
      ↔ (m (ix2 (0 : Fin 1) (0 : Fin 1)) ≤ z ∧ ∀ (r : Fin 256) (col : Fin 2048), X (ix2 r col) ≤ z)
          ∧ RowsLE (distK q k) z 768 1024 := by
  unfold k0_pay24
  dsimp only
  rw [maximumf_apply, maximumf_apply, max_le_iff, max_le_iff, tileMax_le_iff, tileMax_le_iff]
  simp only [tile3_apply H]
  rw [rowsLE_tile (distK q k) z 768 (by norm_num)]

theorem le_pay31_iff (m : FVec Ideal S1x1 .f32) (z : EReal) :
    z ≤ k0_pay31 (F := Ideal) v1 v6 v9 v10 m (k0_pay25 v1 v6 v9 v10) k0_pay26 (ix2 (0 : Fin 1) (0 : Fin 1))
      ↔ (z ≤ m (ix2 (0 : Fin 1) (0 : Fin 1)) ∧ RowsGE (distK q k) z 1024 1280) ∧ RowsGE (distK q k) z 1280 1536 := by
  unfold k0_pay31
  dsimp only
  rw [minimumf_apply, minimumf_apply, le_min_iff, le_min_iff, le_tileMin_iff, le_tileMin_iff]
  simp only [tile4_apply H, tile5_apply H]
  rw [rowsGE_tile (distK q k) z 1024 (by norm_num), rowsGE_tile (distK q k) z 1280 (by norm_num)]

theorem pay32_le_iff (m : FVec Ideal S1x1 .f32) (z : EReal) :
    k0_pay32 (F := Ideal) v1 v6 v9 v10 m (k0_pay25 v1 v6 v9 v10) k0_pay26 (ix2 (0 : Fin 1) (0 : Fin 1)) ≤ z
      ↔ (m (ix2 (0 : Fin 1) (0 : Fin 1)) ≤ z ∧ RowsLE (distK q k) z 1024 1280) ∧ RowsLE (distK q k) z 1280 1536 := by
  unfold k0_pay32
  dsimp only
  rw [maximumf_apply, maximumf_apply, max_le_iff, max_le_iff, tileMax_le_iff, tileMax_le_iff]
  simp only [tile4_apply H, tile5_apply H]
  rw [rowsLE_tile (distK q k) z 1024 (by norm_num), rowsLE_tile (distK q k) z 1280 (by norm_num)]

theorem le_pay37_iff (m : FVec Ideal S1x1 .f32) (z : EReal) :
    z ≤ k0_pay37 (F := Ideal) v9 v10 m (k0_pay33 v1) (k0_pay34 v6) (constant S256x2048 .f32 0x00000000#32) (ix2 (0 : Fin 1) (0 : Fin 1))
      ↔ z ≤ m (ix2 (0 : Fin 1) (0 : Fin 1)) ∧ RowsGE (distK q k) z 1536 1792 := by
  unfold k0_pay37
  dsimp only
  rw [minimumf_apply, le_min_iff, le_tileMin_iff]
  simp only [tile6_apply H]
  rw [rowsGE_tile (distK q k) z 1536 (by norm_num)]

theorem pay38_le_iff (m : FVec Ideal S1x1 .f32) (z : EReal) :
    k0_pay38 (F := Ideal) v9 v10 m (k0_pay33 v1) (k0_pay34 v6) (constant S256x2048 .f32 0x00000000#32) (ix2 (0 : Fin 1) (0 : Fin 1)) ≤ z
      ↔ m (ix2 (0 : Fin 1) (0 : Fin 1)) ≤ z ∧ RowsLE (distK q k) z 1536 1792 := by
  unfold k0_pay38
  dsimp only
  rw [maximumf_apply, max_le_iff, tileMax_le_iff]
  simp only [tile6_apply H]
  rw [rowsLE_tile (distK q k) z 1536 (by norm_num)]

theorem le_pay41_iff (z : EReal) :
    z ≤ k0_pay41 (F := Ideal) v1 v6 v9 v10 (ix2 (0 : Fin 1) (0 : Fin 1)) ↔ RowsGE (distK q k) z 1792 2048 := by
  unfold k0_pay41
  dsimp only
  rw [le_tileMin_iff]
  simp only [tile7_apply H]
  rw [rowsGE_tile (distK q k) z 1792 (by norm_num)]

end Running

theorem le_pay43_iff (a b : FVec Ideal S1x1 .f32) (z : EReal) :
    z ≤ k0_pay43 (F := Ideal) a b (ix2 (0 : Fin 1) (0 : Fin 1))
      ↔ z ≤ a (ix2 (0 : Fin 1) (0 : Fin 1)) ∧ z ≤ b (ix2 (0 : Fin 1) (0 : Fin 1)) := by
  unfold k0_pay43
  rw [minimumf_apply, le_min_iff]

/-! ## The whole slice: its smallest distance, the scale, and the output pieces -/

section Closed

variable (v0 v2 : Vec Ideal S1x1x2048x16 .f32)

/-- The running minimum after the first seven tiles. -/
def runMin6 : FVec Ideal S1x1 .f32 :=
  k0_pay37 (k0_pay6 v2) (k0_pay7 v2)
    (k0_pay31 (k0_pay3 v0) (k0_pay5 v0) (k0_pay6 v2) (k0_pay7 v2)
      (k0_pay23 (k0_pay3 v0) (k0_pay5 v0) (k0_pay6 v2) (k0_pay7 v2)
        (k0_pay16 (k0_pay3 v0) (k0_pay5 v0) (k0_pay6 v2) (k0_pay7 v2) k0_pay8 (k0_pay12 v0 v2))
        (k0_pay20 (k0_pay3 v0) (k0_pay5 v0) (k0_pay6 v2) (k0_pay7 v2)))
      (k0_pay25 (k0_pay3 v0) (k0_pay5 v0) (k0_pay6 v2) (k0_pay7 v2)) k0_pay26)
    (k0_pay33 (k0_pay3 v0)) (k0_pay34 (k0_pay5 v0)) (constant S256x2048 .f32 0x00000000#32)

/-- The running maximum after the first seven tiles. -/
def runMax6 : FVec Ideal S1x1 .f32 :=
  k0_pay38 (k0_pay6 v2) (k0_pay7 v2)
    (k0_pay32 (k0_pay3 v0) (k0_pay5 v0) (k0_pay6 v2) (k0_pay7 v2)
      (k0_pay24 (k0_pay3 v0) (k0_pay5 v0) (k0_pay6 v2) (k0_pay7 v2)
        (k0_pay17 (k0_pay3 v0) (k0_pay5 v0) (k0_pay6 v2) (k0_pay7 v2) k0_pay9 (k0_pay13 v0 v2))
        (k0_pay18 (k0_pay3 v0) (k0_pay5 v0) (k0_pay6 v2) (k0_pay7 v2)))
      (k0_pay25 (k0_pay3 v0) (k0_pay5 v0) (k0_pay6 v2) (k0_pay7 v2)) k0_pay26)
    (k0_pay33 (k0_pay3 v0)) (k0_pay34 (k0_pay5 v0)) (constant S256x2048 .f32 0x00000000#32)

theorem le_runMin6_iff (z : EReal) :
    z ≤ runMin6 v0 v2 (ix2 (0 : Fin 1) (0 : Fin 1)) ↔ RowsGE (distK (blockPts v0) (blockPts v2)) z 0 1792 := by
  have H := derived_of_blocks v0 v2
  unfold runMin6
  rw [le_pay37_iff H, le_pay31_iff H, le_pay23_iff H, le_pay16_iff H, le_tile0Min_iff, pinf_apply]
  simp only [tile2cast_apply H, le_top, true_and]
  rw [rowsGE_tile _ z 512 (by norm_num),
    rowsGE_append _ z 0 256 512 (by norm_num) (by norm_num), rowsGE_append _ z 0 512 768 (by norm_num) (by norm_num),
    rowsGE_append _ z 0 768 1024 (by norm_num) (by norm_num), rowsGE_append _ z 0 1024 1280 (by norm_num) (by norm_num),
    rowsGE_append _ z 0 1280 1536 (by norm_num) (by norm_num), rowsGE_append _ z 0 1536 1792 (by norm_num) (by norm_num)]

theorem runMax6_le_iff (z : EReal) :
    runMax6 v0 v2 (ix2 (0 : Fin 1) (0 : Fin 1)) ≤ z ↔ RowsLE (distK (blockPts v0) (blockPts v2)) z 0 1792 := by
  have H := derived_of_blocks v0 v2
  unfold runMax6
  rw [pay38_le_iff H, pay32_le_iff H, pay24_le_iff H, pay17_le_iff H, tile0Max_le_iff, ninf_apply]
  simp only [tile2_apply H, bot_le, true_and]
  rw [rowsLE_tile _ z 512 (by norm_num),
    rowsLE_append _ z 0 256 512 (by norm_num) (by norm_num), rowsLE_append _ z 0 512 768 (by norm_num) (by norm_num),
    rowsLE_append _ z 0 768 1024 (by norm_num) (by norm_num), rowsLE_append _ z 0 1024 1280 (by norm_num) (by norm_num),
    rowsLE_append _ z 0 1280 1536 (by norm_num) (by norm_num), rowsLE_append _ z 0 1536 1792 (by norm_num) (by norm_num)]

/-- The running minimum after all eight tiles is the smallest clamped distance of the slice. -/
theorem fullMin_eq :
    k0_pay43 (F := Ideal) (runMin6 v0 v2) (k0_pay41 (k0_pay3 v0) (k0_pay5 v0) (k0_pay6 v2) (k0_pay7 v2)) (ix2 (0 : Fin 1) (0 : Fin 1))
      = gmin (distK (blockPts v0) (blockPts v2)) := by
  have H := derived_of_blocks v0 v2
  refine eq_gmin _ _ fun z => ?_
  rw [le_pay43_iff, le_runMin6_iff, le_pay41_iff H, rowsGE_append _ z 0 1792 2048 (by norm_num) (by norm_num), rowsGE_all]

/-- The scale the body forms: 18 divided by the spread of the slice's clamped distances. -/
theorem scale_eq :
    k0_pay44 (F := Ideal) (runMin6 v0 v2) (runMax6 v0 v2) (k0_pay41 (k0_pay3 v0) (k0_pay5 v0) (k0_pay6 v2) (k0_pay7 v2))
        (k0_pay42 (k0_pay3 v0) (k0_pay5 v0) (k0_pay6 v2) (k0_pay7 v2)) (ix2 (0 : Fin 1) (0 : Fin 1))
      = Ideal.div (Ideal.ofBits .f32 0x41900000#32) (spread (distK (blockPts v0) (blockPts v2))) := by
  have H := derived_of_blocks v0 v2
  have hmax : ∀ T : EReal,
      (∀ z, T ≤ z ↔ ∀ (r : Fin 256) (col : Fin 2048),
        k0_pay42 (F := Ideal) (k0_pay3 v0) (k0_pay5 v0) (k0_pay6 v2) (k0_pay7 v2) (ix3 (0 : Fin 1) r col) ≤ z) →
      max (runMax6 v0 v2 (ix2 (0 : Fin 1) (0 : Fin 1))) T = gmax (distK (blockPts v0) (blockPts v2)) := by
    intro T hT
    refine eq_gmax _ _ fun z => ?_
    rw [max_le_iff, runMax6_le_iff, hT]
    simp only [tile7cast_apply H]
    rw [rowsLE_tile _ z 1792 (by norm_num), rowsLE_append _ z 0 1792 2048 (by norm_num) (by norm_num), rowsLE_all]
  unfold k0_pay44
  dsimp only
  rw [divf_apply, broadcast_apply, subf_apply, maximumf_apply, fullMin_eq, hmax _ (tileMax3_le_iff _ _ _ _)]
  rfl

end Closed

section Pieces

variable (mn sc : FVec Ideal S1x1 .f32) (X : Vec Ideal S256x2048 .f32) (u v : Fin 1) (r : Fin 256) (col : Fin 2048)

theorem piece7_apply : k0_pay2 (F := Ideal) mn sc X (ix4 u v r col)
    = Ideal.ofBits .f32 0xC1100000#32 + (X (ix2 r col) - mn (ix2 (0 : Fin 1) (0 : Fin 1))) * sc (ix2 (0 : Fin 1) (0 : Fin 1)) := by
  unfold k0_pay2
  exact rescale_apply mn sc X _ _ u v r col

theorem piece6_apply : k0_pay1 (F := Ideal) mn sc X (ix4 u v r col)
    = Ideal.ofBits .f32 0xC1100000#32 + (X (ix2 r col) - mn (ix2 (0 : Fin 1) (0 : Fin 1))) * sc (ix2 (0 : Fin 1) (0 : Fin 1)) := by
  unfold k0_pay1
  exact rescale_apply mn sc X _ _ u v r col

theorem piece5_apply : k0_pay51 (F := Ideal) mn sc X (ix4 u v r col)
    = Ideal.ofBits .f32 0xC1100000#32 + (X (ix2 r col) - mn (ix2 (0 : Fin 1) (0 : Fin 1))) * sc (ix2 (0 : Fin 1) (0 : Fin 1)) := by
  unfold k0_pay51
  exact rescale_apply mn sc X _ _ u v r col

theorem piece4_apply : k0_pay50 (F := Ideal) mn sc X (ix4 u v r col)
    = Ideal.ofBits .f32 0xC1100000#32 + (X (ix2 r col) - mn (ix2 (0 : Fin 1) (0 : Fin 1))) * sc (ix2 (0 : Fin 1) (0 : Fin 1)) := by
  unfold k0_pay50
  exact rescale_apply mn sc X _ _ u v r col

theorem piece3_apply : k0_pay49 (F := Ideal) mn sc X (ix4 u v r col)
    = Ideal.ofBits .f32 0xC1100000#32 + (X (ix2 r col) - mn (ix2 (0 : Fin 1) (0 : Fin 1))) * sc (ix2 (0 : Fin 1) (0 : Fin 1)) := by
  unfold k0_pay49
  exact rescale_apply mn sc X _ _ u v r col

variable (a b c : FVec Ideal S1x1 .f32) (d : FVec Ideal S1x256x2048 .f32)

theorem piece2_apply : k0_pay48 (F := Ideal) (k0_pay47 a b c d X) (ix4 u v r col)
    = Ideal.ofBits .f32 0xC1100000#32
        + (X (ix2 r col) - k0_pay43 a c (ix2 (0 : Fin 1) (0 : Fin 1))) * k0_pay44 a b c d (ix2 (0 : Fin 1) (0 : Fin 1)) := by
  unfold k0_pay48 k0_pay47
  exact rescale_apply (k0_pay43 a c) (k0_pay44 a b c d) X _ _ u v r col

theorem piece1_apply : k0_pay46 (F := Ideal) a b c d X (ix4 u v r col)
    = Ideal.ofBits .f32 0xC1100000#32
        + (X (ix2 r col) - k0_pay43 a c (ix2 (0 : Fin 1) (0 : Fin 1))) * k0_pay44 a b c d (ix2 (0 : Fin 1) (0 : Fin 1)) := by
  unfold k0_pay46
  exact rescale_apply (k0_pay43 a c) (k0_pay44 a b c d) X _ _ u v r col

theorem piece0_apply : k0_pay45 (F := Ideal) a b c d X (ix4 u v r col)
    = Ideal.ofBits .f32 0xC1100000#32
        + (X (ix2 r col) - k0_pay43 a c (ix2 (0 : Fin 1) (0 : Fin 1))) * k0_pay44 a b c d (ix2 (0 : Fin 1) (0 : Fin 1)) := by
  unfold k0_pay45
  exact rescale_apply (k0_pay43 a c) (k0_pay44 a b c d) X _ _ u v r col

end Pieces

end Cert.DistRescale

end
-- ==== Proof.KernelBody.lean ====
/-
  What one run of the kernel body leaves in the staged output block, entry by entry: the rescaled clamped
  distance of the two staged blocks of points.

  The body's stores into the scratch matrix are eight tiles of 256 rows; together they tile the matrix, and each is
  the corresponding tile of ONE function of the matrix's index — the clamped distance between point (row) of the first
  block and point (column) of the second.  So whatever rows the second pass loads back, it reads that function.
  The running minimum after the eighth tile is the smallest clamped distance of the whole slice and the scale is 18
  divided by the spread (largest minus smallest), both carried by their universal properties tile after tile.
  Each of the eight stores into the output block is therefore a tile of one function too: -9 plus the offset of the
  distance from the smallest one, times the scale.
-/
import proofs.«140822_j11527692222836_1_alg».proof.Proof.Gen.KernelIdeal.Frame
import proofs.«140822_j11527692222836_1_alg».proof.Proof.KernelTiles

set_option maxRecDepth 16384

noncomputable section

namespace Cert.DistRescale

open Idealize.ShloMosaic Idealize.ShloMosaic.TcCoe Idealize.ShloMosaic.Tactic Idealize.ShloMosaic.ValueIdx Cert.KernelIdeal Cert.KernelIdeal.Gen

section Body

variable (c : Dev nD)
  (arg2 : Memref sig .tc .vmem S1x1x2048x16 .f32) (harg2 : arg2.IsWhole)
  (arg3 : Memref sig .tc .vmem S1x1x2048x16 .f32) (harg3 : arg3.IsWhole)
  (arg5 : Memref sig .tc .vmem S2048x2048 .f32)
  (x0 x1 : Vec Ideal S1x1x2048x16 .f32)

theorem zero4 : (![0, 0, 0, 0] : Fin 4 → ℕ) = fun _ => 0 := by
  funext a; fin_cases a <;> rfl

/-- A whole-block load of a staged block reads the block. -/
theorem load_block (arg : Memref sig .tc .vmem S1x1x2048x16 .f32) (harg : arg.IsWhole) (x : Vec Ideal S1x1x2048x16 .f32)
    (inb : ∀ a, (![0, 0, 0, 0] : Fin 4 → ℕ) a + S1x1x2048x16.size a ≤ S1x1x2048x16.size a) :
    View.readAt (Elt Ideal) arg.view (Rect.unit ![0, 0, 0, 0] S1x1x2048x16.size inb).toLoadRect (harg.unread x) = x := by
  rw [View.readAt_eq_ld, harg.read_unread, View.ld_unit_zero zero4]

theorem rows_eq : kernelRun0_A.sl.r (F := Ideal) c arg2 harg2 x0 = k0_pay3 x0 := by
  unfold kernelRun0_A.sl.r
  rw [load_block]

theorem sqcol_eq : kernelRun0_A.sl.r_1 (F := Ideal) c arg2 harg2 x0 = k0_pay5 x0 := by
  unfold kernelRun0_A.sl.r_1
  rw [load_block]

theorem sqrow_eq : kernelRun0_A.sl.r_2 (F := Ideal) c arg3 harg3 x1 = k0_pay6 x1 := by
  unfold kernelRun0_A.sl.r_2
  rw [load_block]

theorem transposed_eq : kernelRun0_A.sl.r_3 (F := Ideal) c arg3 harg3 x1 = k0_pay7 x1 := by
  unfold kernelRun0_A.sl.r_3
  rw [load_block]

theorem runMin6_eq : kernelRun0_A.sl.r_17 (F := Ideal) c arg2 harg2 arg3 harg3 x0 x1 = runMin6 x0 x1 := by
  unfold kernelRun0_A.sl.r_17 kernelRun0_A.sl.r_13 kernelRun0_A.sl.r_10 kernelRun0_A.sl.r_6 kernelRun0_A.sl.r_4 kernelRun0_A.sl.r_9
    kernelRun0_A.sl.r_12 kernelRun0_A.sl.r_15 kernelRun0_A.sl.r_16 kernelRun0_A.sl.cst_47
  rw [rows_eq, sqcol_eq, sqrow_eq, transposed_eq, load_block, load_block]
  rfl

theorem runMax6_eq : kernelRun0_A.sl.r_18 (F := Ideal) c arg2 harg2 arg3 harg3 x0 x1 = runMax6 x0 x1 := by
  unfold kernelRun0_A.sl.r_18 kernelRun0_A.sl.r_14 kernelRun0_A.sl.r_11 kernelRun0_A.sl.r_7 kernelRun0_A.sl.r_5 kernelRun0_A.sl.r_8
    kernelRun0_A.sl.r_12 kernelRun0_A.sl.r_15 kernelRun0_A.sl.r_16 kernelRun0_A.sl.cst_47
  rw [rows_eq, sqcol_eq, sqrow_eq, transposed_eq, load_block, load_block]
  rfl

theorem lastMin_eq : kernelRun0_A.sl.r_19 (F := Ideal) c arg2 harg2 arg3 harg3 x0 x1
    = k0_pay41 (k0_pay3 x0) (k0_pay5 x0) (k0_pay6 x1) (k0_pay7 x1) := by
  unfold kernelRun0_A.sl.r_19
  rw [rows_eq, sqcol_eq, sqrow_eq, transposed_eq]

theorem lastTile_eq : kernelRun0_A.sl.r_20 (F := Ideal) c arg2 harg2 arg3 harg3 x0 x1
    = k0_pay42 (k0_pay3 x0) (k0_pay5 x0) (k0_pay6 x1) (k0_pay7 x1) := by
  unfold kernelRun0_A.sl.r_20
  rw [rows_eq, sqcol_eq, sqrow_eq, transposed_eq]

/-! ## The scratch matrix of distances, written tile by tile and read back -/

/-- The clamped distances as one function of the scratch matrix's index. -/
def scratchG (q k : Pts) : S2048x2048.Idx → EReal :=
  fun y => distK q k ⟨(y 0).val, (y 0).isLt⟩ ⟨(y 1).val, (y 1).isLt⟩

theorem scratchG_at (q k : Pts) (o : ℕ) (ho : o + 256 ≤ 2048) (y : S2048x2048.Idx) (r' : Fin 256) (c' : Fin 2048)
    (h0 : (y 0).val = o + r'.val) (h1 : (y 1).val = c'.val) : scratchG q k y = distK q k (tileRow o ho r') c' := by
  unfold scratchG
  have e0 : (⟨(y 0).val, (y 0).isLt⟩ : Fin 2048) = tileRow o ho r' := Fin.ext h0
  have e1 : (⟨(y 1).val, (y 1).isLt⟩ : Fin 2048) = c' := Fin.ext h1
  rw [e0, e1]

section Stored

variable {q k : Pts} {v1 : FVec Ideal S2048x16 .f32} {v6 : FVec Ideal S2048x1 .f32} {v9 : FVec Ideal S1x2048 .f32}
  {v10 : FVec Ideal S16x2048 .f32} (H : Derived q k v1 v6 v9 v10) (r' : Fin 256) (c' : Fin 2048)

include H

theorem stored1_apply : k0_pay15 (F := Ideal) v1 v6 v9 v10 (ix2 r' c') = distK q k (tileRow 256 (by norm_num) r') c' := by
  unfold k0_pay15; rw [shapeCast_self]; exact tile1_apply H r' c'

theorem stored2_apply : k0_pay19 (F := Ideal) v1 v6 v9 v10 (ix2 r' c') = distK q k (tileRow 512 (by norm_num) r') c' := by
  unfold k0_pay19; rw [shapeCast_self]; exact tile2_apply H r' c'

theorem stored3_apply : k0_pay22 (F := Ideal) v1 v6 v9 v10 (ix2 r' c') = distK q k (tileRow 768 (by norm_num) r') c' := by
  unfold k0_pay22; rw [shapeCast_self]; exact tile3_apply H r' c'

theorem stored4_apply : k0_pay28 (F := Ideal) (k0_pay25 v1 v6 v9 v10) k0_pay26 (ix2 r' c') = distK q k (tileRow 1024 (by norm_num) r') c' := by
  unfold k0_pay28; rw [shapeCast_self]; exact tile4_apply H r' c'

theorem stored5_apply : k0_pay30 (F := Ideal) v1 v6 v9 v10 (ix2 r' c') = distK q k (tileRow 1280 (by norm_num) r') c' := by
  unfold k0_pay30; rw [shapeCast_self]; exact tile5_apply H r' c'

theorem stored6_apply : k0_pay36 (F := Ideal) v9 v10 (k0_pay33 v1) (k0_pay34 v6) (constant S256x2048 .f32 0x00000000#32) (ix2 r' c')
    = distK q k (tileRow 1536 (by norm_num) r') c' := by
  unfold k0_pay36; rw [shapeCast_self]; exact tile6_apply H r' c'

theorem stored7_apply : k0_pay40 (F := Ideal) v1 v6 v9 v10 (ix2 r' c') = distK q k (tileRow 1792 (by norm_num) r') c' := by
  unfold k0_pay40; rw [shapeCast_self]; exact tile7_apply H r' c'

end Stored

theorem stored0_apply (v0 v2 : Vec Ideal S1x1x2048x16 .f32) (r' : Fin 256) (c' : Fin 2048) :
    k0_pay11 (F := Ideal) v0 v2 (ix2 r' c') = distK (blockPts v0) (blockPts v2) (tileRow 0 (by norm_num) r') c' := by
  unfold k0_pay11; rw [shapeCast_self]; exact tile0_apply v0 v2 r' c'

/-- Every tile the body stores into the scratch matrix is that tile of the one function `scratchG`. -/
theorem scratch_pieces :
    ∀ p ∈ kernelRun0_A.sl.HS0_8 (F := Ideal) c arg2 harg2 arg3 harg3 x0 x1, ∀ x : p.1.shape.Idx,
      p.2 x = scratchG (blockPts x0) (blockPts x1) (p.1.emb x) := by
  have H := derived_of_blocks x0 x1
  unfold kernelRun0_A.sl.HS0_8 kernelRun0_A.sl.r_12 kernelRun0_A.sl.r_15 kernelRun0_A.sl.r_16 kernelRun0_A.sl.cst_47
  rw [rows_eq, sqcol_eq, sqrow_eq, transposed_eq, load_block, load_block]
  intro p hp x
  simp only [List.mem_cons, List.not_mem_nil, or_false] at hp
  rcases hp with rfl | rfl | rfl | rfl | rfl | rfl | rfl | rfl
  all_goals
    obtain ⟨r', c', rfl⟩ : ∃ (r' : Fin 256) (c' : Fin 2048), x = ix2 r' c' := ⟨x 0, x 1, eq_ix2 x⟩
  · exact (stored7_apply H r' c').trans (scratchG_at _ _ 1792 _ _ r' c' (by show 1792 + 1 * r'.val = _; omega) (by show 0 + 1 * c'.val = _; omega)).symm
  · exact (stored6_apply H r' c').trans (scratchG_at _ _ 1536 _ _ r' c' (by show 1536 + 1 * r'.val = _; omega) (by show 0 + 1 * c'.val = _; omega)).symm
  · exact (stored5_apply H r' c').trans (scratchG_at _ _ 1280 _ _ r' c' (by show 1280 + 1 * r'.val = _; omega) (by show 0 + 1 * c'.val = _; omega)).symm
  · exact (stored4_apply H r' c').trans (scratchG_at _ _ 1024 _ _ r' c' (by show 1024 + 1 * r'.val = _; omega) (by show 0 + 1 * c'.val = _; omega)).symm
  · exact (stored3_apply H r' c').trans (scratchG_at _ _ 768 _ _ r' c' (by show 768 + 1 * r'.val = _; omega) (by show 0 + 1 * c'.val = _; omega)).symm
  · exact (stored2_apply H r' c').trans (scratchG_at _ _ 512 _ _ r' c' (by show 512 + 1 * r'.val = _; omega) (by show 0 + 1 * c'.val = _; omega)).symm
  · exact (stored1_apply H r' c').trans (scratchG_at _ _ 256 _ _ r' c' (by show 256 + 1 * r'.val = _; omega) (by show 0 + 1 * c'.val = _; omega)).symm
  · exact (stored0_apply x0 x1 r' c').trans (scratchG_at _ _ 0 _ _ r' c' (by show 0 + 1 * r'.val = _; omega) (by show 0 + 1 * c'.val = _; omega)).symm

/-- The eight stored tiles cover the scratch matrix. -/
theorem scratch_cover (y : S2048x2048.Idx) :
    ∃ p ∈ kernelRun0_A.sl.HS0_8 (F := Ideal) c arg2 harg2 arg3 harg3 x0 x1, y ∈ p.1.set :=
  View.cover_of_tiledL (kernelRun0_A.sl.HS0_8 (F := Ideal) c arg2 harg2 arg3 harg3 x0 x1) S256x2048.size (by sl_kernel_rfl) y

/-- So the scratch matrix, read back anywhere after the eight stores, holds the clamped distances. -/
theorem scratch_read (o : ℕ) (ho : o + 256 ≤ 2048) (inb : ∀ a, (![o, 0] : Fin 2 → ℕ) a + (![256, 2048] : Fin 2 → ℕ) a ≤ S2048x2048.size a)
    (r' : Fin 256) (c' : Fin 2048) :
    arg5.view.readCov (kernelRun0_A.sl.HS0_8 (F := Ideal) c arg2 harg2 arg3 harg3 x0 x1)
        (Rect.unit (s := S2048x2048) ![o, 0] ![256, 2048] inb).toLoadRect (ix2 r' c')
      = distK (blockPts x0) (blockPts x1) (tileRow o ho r') c' := by
  rw [View.readCov_eq_canon']
  refine (View.canon_apply_of_pieces (scratchG (blockPts x0) (blockPts x1)) _ (scratch_pieces c arg2 harg2 arg3 harg3 x0 x1) _
    (scratch_cover c arg2 harg2 arg3 harg3 x0 x1 _)).trans ?_
  exact scratchG_at _ _ o ho _ r' c' (by show o + 1 * r'.val = _; omega) (by show 0 + 1 * c'.val = _; omega)

/-! ## The output block, written piece by piece -/

/-- The rescaled clamped distances as one function of the staged output block's index. -/
def outG (q k : Pts) : S1x1x2048x2048.Idx → EReal :=
  fun y => outK q k ⟨(y 2).val, (y 2).isLt⟩ ⟨(y 3).val, (y 3).isLt⟩

theorem outG_at (q k : Pts) (o : ℕ) (ho : o + 256 ≤ 2048) (y : S1x1x2048x2048.Idx) (r' : Fin 256) (c' : Fin 2048)
    (h2 : (y 2).val = o + r'.val) (h3 : (y 3).val = c'.val) : outG q k y = outK q k (tileRow o ho r') c' := by
  unfold outG
  have e2 : (⟨(y 2).val, (y 2).isLt⟩ : Fin 2048) = tileRow o ho r' := Fin.ext h2
  have e3 : (⟨(y 3).val, (y 3).isLt⟩ : Fin 2048) = c' := Fin.ext h3
  rw [e2, e3]

variable (i : grid0.Coords) (arg4 : Memref sig .tc .vmem S1x1x2048x2048 .f32) (harg4 : arg4.IsWhole) (harg5 : arg5.IsWhole)

/-- Every piece the body stores into the output block is that piece of the one function `outG`. -/
theorem out_pieces :
    ∀ p ∈ (kernelRun0_A (F := Ideal) c i arg2 harg2 arg3 harg3 arg4 harg4 arg5 harg5 x0 x1).1, ∀ x : p.1.shape.Idx,
      p.2 x = outG (blockPts x0) (blockPts x1) (p.1.emb x) := by
  unfold kernelRun0_A
  dsimp only
  unfold kernelRun0_A.sl.r_21 kernelRun0_A.sl.r_22 kernelRun0_A.sl.r_23
    kernelRun0_A.sl.v232 kernelRun0_A.sl.v242 kernelRun0_A.sl.v252 kernelRun0_A.sl.v262 kernelRun0_A.sl.v272
    kernelRun0_A.sl.v282 kernelRun0_A.sl.v292 kernelRun0_A.sl.v302
  rw [runMin6_eq, runMax6_eq, lastMin_eq, lastTile_eq]
  intro p hp x
  simp only [List.mem_cons, List.not_mem_nil, or_false] at hp
  rcases hp with rfl | rfl | rfl | rfl | rfl | rfl | rfl | rfl
  all_goals
    obtain ⟨u, v, r', c', rfl⟩ : ∃ (u v : Fin 1) (r' : Fin 256) (c' : Fin 2048), x = ix4 u v r' c' :=
      ⟨x 0, x 1, x 2, x 3, eq_ix4 x⟩
    dsimp only
  · rw [piece7_apply, fullMin_eq, scale_eq, scratch_read c arg2 harg2 arg3 harg3 arg5 x0 x1 1792 (by norm_num)]
    exact (outG_at _ _ 1792 _ _ r' c' (by show 1792 + 1 * r'.val = _; omega) (by show 0 + 1 * c'.val = _; omega)).symm
  · rw [piece6_apply, fullMin_eq, scale_eq, scratch_read c arg2 harg2 arg3 harg3 arg5 x0 x1 1536 (by norm_num)]
    exact (outG_at _ _ 1536 _ _ r' c' (by show 1536 + 1 * r'.val = _; omega) (by show 0 + 1 * c'.val = _; omega)).symm
  · rw [piece5_apply, fullMin_eq, scale_eq, scratch_read c arg2 harg2 arg3 harg3 arg5 x0 x1 1280 (by norm_num)]
    exact (outG_at _ _ 1280 _ _ r' c' (by show 1280 + 1 * r'.val = _; omega) (by show 0 + 1 * c'.val = _; omega)).symm
  · rw [piece4_apply, fullMin_eq, scale_eq, scratch_read c arg2 harg2 arg3 harg3 arg5 x0 x1 1024 (by norm_num)]
    exact (outG_at _ _ 1024 _ _ r' c' (by show 1024 + 1 * r'.val = _; omega) (by show 0 + 1 * c'.val = _; omega)).symm
  · rw [piece3_apply, fullMin_eq, scale_eq, scratch_read c arg2 harg2 arg3 harg3 arg5 x0 x1 768 (by norm_num)]
    exact (outG_at _ _ 768 _ _ r' c' (by show 768 + 1 * r'.val = _; omega) (by show 0 + 1 * c'.val = _; omega)).symm
  · rw [piece2_apply, fullMin_eq, scale_eq, scratch_read c arg2 harg2 arg3 harg3 arg5 x0 x1 512 (by norm_num)]
    exact (outG_at _ _ 512 _ _ r' c' (by show 512 + 1 * r'.val = _; omega) (by show 0 + 1 * c'.val = _; omega)).symm
  · rw [piece1_apply, fullMin_eq, scale_eq, scratch_read c arg2 harg2 arg3 harg3 arg5 x0 x1 256 (by norm_num)]
    exact (outG_at _ _ 256 _ _ r' c' (by show 256 + 1 * r'.val = _; omega) (by show 0 + 1 * c'.val = _; omega)).symm
  · rw [piece0_apply, fullMin_eq, scale_eq, scratch_read c arg2 harg2 arg3 harg3 arg5 x0 x1 0 (by norm_num)]
    exact (outG_at _ _ 0 _ _ r' c' (by show 0 + 1 * r'.val = _; omega) (by show 0 + 1 * c'.val = _; omega)).symm

theorem body_value_aux (r col : Fin 2048) :
    out0_A_2 (F := Ideal) c i arg2 harg2 arg3 harg3 arg4 harg4 arg5 harg5 x0 x1 (ix4 (0 : Fin 1) (0 : Fin 1) r col)
      = outK (blockPts x0) (blockPts x1) r col := by
  unfold out0_A_2
  rw [View.read_writes_junk_eq_canon]
  exact View.canon_apply_of_pieces (outG (blockPts x0) (blockPts x1)) _
    (out_pieces c arg2 harg2 arg3 harg3 arg5 x0 x1 i arg4 harg4 harg5) _
    (cover0_A_2 c i arg2 harg2 arg3 harg3 arg4 harg4 arg5 harg5 x0 x1 _)

end Body

/-- After the body, entry (r, col) of the staged output block is the rescaled clamped distance between point r of
    the first block and point col of the second. -/
theorem body_value (c : Dev nD) (i : grid0.Coords)
    (arg2 : Memref sig .tc .vmem S1x1x2048x16 .f32) (harg2 : arg2.IsWhole)
    (arg3 : Memref sig .tc .vmem S1x1x2048x16 .f32) (harg3 : arg3.IsWhole)
    (arg4 : Memref sig .tc .vmem S1x1x2048x2048 .f32) (harg4 : arg4.IsWhole)
    (arg5 : Memref sig .tc .vmem S2048x2048 .f32) (harg5 : arg5.IsWhole)
    (x0 x1 : Vec Ideal S1x1x2048x16 .f32) (r col : Fin 2048) :
    out0_A_2 (F := Ideal) c i arg2 harg2 arg3 harg3 arg4 harg4 arg5 harg5 x0 x1 (ValueIdx.ix4 0 0 r col)
      = outK (blockPts x0) (blockPts x1) r col :=
  body_value_aux c arg2 harg2 arg3 harg3 arg5 x0 x1 i arg4 harg4 harg5 r col

end Cert.DistRescale

end
-- ==== Proof.KernelArray.lean ====
/-
  From one block to the whole array.  The result [8, 4, 2048, 2048] is computed slice by slice: the point
  t = 4 · head + batch of the 8 × 4 grid reads the (head, batch) slices of the two arguments — 2048 points of
  16 coordinates each — and writes the (head, batch) slice of the result, the 2048 × 2048 rescaled clamped
  distances of those points.  Here: where each window's block sits (its block index is (t / 4, t % 4, 0, 0));
  each staged input block as a slice of its argument; what a grid point writes back as its block of the one
  function `GK` of the two arguments; every index of the result lies in the block of the point
  4 · head + batch, so the 32 blocks cover the array; hence the array after the run is `GK` of the arguments,
  and the arguments are unchanged.
-/
import proofs.«140822_j11527692222836_1_alg».proof.Proof.KernelBody
import proofs.«140822_j11527692222836_1_alg».proof.Proof.Gen.KernelIdeal.Value
import Idealize.ShloMosaic.Lib.Pipeline.Value

noncomputable section

namespace Cert.DistRescale

open Idealize.ShloMosaic Idealize.ShloMosaic.TcCoe Idealize.SL.Sem Cert.KernelIdeal Cert.KernelIdeal.Gen

variable (m : (ℓ : Loc nD τ sig) → Buf (Elt Ideal) ℓ)

/-! ## Where the blocks sit -/

/-- The block index of each window at grid point t is (t / 4, t % 4, 0, 0): point t works on head t / 4
    and batch t % 4, and takes the whole of the two long axes. -/
theorem block_index : ∀ t : Fin cfg0.N,
    (win0_0.index t (0 : Fin 4) = t.val / 4 ∧ win0_0.index t (1 : Fin 4) = t.val % 4
      ∧ win0_0.index t (2 : Fin 4) = 0 ∧ win0_0.index t (3 : Fin 4) = 0)
    ∧ (win0_1.index t (0 : Fin 4) = t.val / 4 ∧ win0_1.index t (1 : Fin 4) = t.val % 4
      ∧ win0_1.index t (2 : Fin 4) = 0 ∧ win0_1.index t (3 : Fin 4) = 0)
    ∧ (win0_2.index t (0 : Fin 4) = t.val / 4 ∧ win0_2.index t (1 : Fin 4) = t.val % 4
      ∧ win0_2.index t (2 : Fin 4) = 0 ∧ win0_2.index t (3 : Fin 4) = 0) :=
  (by decide +kernel : ∀ t : Fin grid0.N, _)

/-- There are 32 grid points. -/
theorem point_lt (t : Fin cfg0.N) : t.val < 32 := lt_of_lt_of_eq t.isLt N_0

/-! ## One staged output block, entry by entry -/

/-- Entry y of the staged output block is the rescaled clamped distance between the points of the two staged
    input blocks that y's two long coordinates name. -/
theorem out_block_apply (c : Dev nD) (i : grid0.Coords)
    (arg2 : Memref sig .tc .vmem S1x1x2048x16 .f32) (harg2 : arg2.IsWhole)
    (arg3 : Memref sig .tc .vmem S1x1x2048x16 .f32) (harg3 : arg3.IsWhole)
    (arg4 : Memref sig .tc .vmem S1x1x2048x2048 .f32) (harg4 : arg4.IsWhole)
    (arg5 : Memref sig .tc .vmem S2048x2048 .f32) (harg5 : arg5.IsWhole)
    (x0 x1 : Vec Ideal S1x1x2048x16 .f32) (y : S1x1x2048x2048.Idx) :
    out0_A_2 (F := Ideal) c i arg2 harg2 arg3 harg3 arg4 harg4 arg5 harg5 x0 x1 y
      = outK (blockPts x0) (blockPts x1) ⟨(y 2).val, (y 2).isLt⟩ ⟨(y 3).val, (y 3).isLt⟩ := by
  obtain ⟨a, b, r, col, rfl⟩ : ∃ (a b : Fin 1) (r col : Fin 2048), y = ValueIdx.ix4 a b r col :=
    ⟨y 0, y 1, y 2, y 3, ValueIdx.eq_ix4 y⟩
  obtain rfl : a = 0 := Subsingleton.elim _ _
  obtain rfl : b = 0 := Subsingleton.elim _ _
  exact body_value c i arg2 harg2 arg3 harg3 arg4 harg4 arg5 harg5 x0 x1 r col

/-- If the two staged input blocks are the (h, b) slices of two arrays, entry y of the staged output block is the
    entry of the whole result at head h, batch b and y's two long coordinates. -/
theorem out_block_eq (c : Dev nD) (i : grid0.Coords)
    (arg2 : Memref sig .tc .vmem S1x1x2048x16 .f32) (harg2 : arg2.IsWhole)
    (arg3 : Memref sig .tc .vmem S1x1x2048x16 .f32) (harg3 : arg3.IsWhole)
    (arg4 : Memref sig .tc .vmem S1x1x2048x2048 .f32) (harg4 : arg4.IsWhole)
    (arg5 : Memref sig .tc .vmem S2048x2048 .f32) (harg5 : arg5.IsWhole)
    (x0 x1 : Vec Ideal S1x1x2048x16 .f32) (a0 a1 : S8x4x2048x16.Idx → EReal) (h : Fin 8) (b : Fin 4)
    (h0 : blockPts x0 = slice a0 h b) (h1 : blockPts x1 = slice a1 h b)
    (y : S1x1x2048x2048.Idx) (k : S8x4x2048x2048.Idx)
    (hk0 : (k 0).val = h.val) (hk1 : (k 1).val = b.val) (hk2 : (k 2).val = (y 2).val) (hk3 : (k 3).val = (y 3).val) :
    out0_A_2 (F := Ideal) c i arg2 harg2 arg3 harg3 arg4 harg4 arg5 harg5 x0 x1 y = GK a0 a1 k := by
  obtain ⟨k0, k1, k2, k3, rfl⟩ : ∃ (k0 : Fin 8) (k1 : Fin 4) (k2 k3 : Fin 2048), k = ValueIdx.ix4 k0 k1 k2 k3 :=
    ⟨k 0, k 1, k 2, k 3, ValueIdx.eq_ix4 k⟩
  obtain rfl : k0 = h := Fin.ext hk0
  obtain rfl : k1 = b := Fin.ext hk1
  have e2 : (⟨(y 2).val, (y 2).isLt⟩ : Fin 2048) = k2 := Fin.ext hk2.symm
  have e3 : (⟨(y 3).val, (y 3).isLt⟩ : Fin 2048) = k3 := Fin.ext hk3.symm
  rw [GK_ix4, out_block_apply, h0, h1, e2, e3]

/-! ## The staged input blocks are slices of the arguments -/

/-- Entry x of the first window's block at point t is the first argument at head t / 4, batch t % 4 and x's
    two long coordinates. -/
theorem arg0_block_apply (c : Dev nD) (t : Fin cfg0.N) (x : S1x1x2048x16.Idx) (k : S8x4x2048x16.Idx)
    (hk0 : (k 0).val = t.val / 4) (hk1 : (k 1).val = t.val % 4) (hk2 : (k 2).val = (x 2).val) (hk3 : (k 3).val = (x 3).val) :
    (iblk m c 0 t : Vec Ideal S1x1x2048x16 .f32) x = (V m c main_arg0 : S8x4x2048x16.Idx → EReal) k := by
  obtain ⟨⟨e0, e1, e2, e3⟩, -, -⟩ := block_index t
  have hx0 : (x 0).val < 1 := (x 0).isLt
  have hx1 : (x 1).val < 1 := (x 1).isLt
  unfold iblk
  rw [View.read_apply]
  show V m c main_arg0 (((cfg0.win 0).blk t).view.emb x) = V m c main_arg0 k
  refine congrArg _ ?_
  funext a
  apply Fin.ext
  match a with
  | ⟨0, _⟩ => show win0_0.index t (0 : Fin 4) * 1 + 1 * (x 0).val = (k 0).val; omega
  | ⟨1, _⟩ => show win0_0.index t (1 : Fin 4) * 1 + 1 * (x 1).val = (k 1).val; omega
  | ⟨2, _⟩ => show win0_0.index t (2 : Fin 4) * 2048 + 1 * (x 2).val = (k 2).val; omega
  | ⟨3, _⟩ => show win0_0.index t (3 : Fin 4) * 16 + 1 * (x 3).val = (k 3).val; omega

/-- The same for the second window and the second argument. -/
theorem arg1_block_apply (c : Dev nD) (t : Fin cfg0.N) (x : S1x1x2048x16.Idx) (k : S8x4x2048x16.Idx)
    (hk0 : (k 0).val = t.val / 4) (hk1 : (k 1).val = t.val % 4) (hk2 : (k 2).val = (x 2).val) (hk3 : (k 3).val = (x 3).val) :
    (iblk m c 1 t : Vec Ideal S1x1x2048x16 .f32) x = (V m c main_arg1 : S8x4x2048x16.Idx → EReal) k := by
  obtain ⟨-, ⟨e0, e1, e2, e3⟩, -⟩ := block_index t
  have hx0 : (x 0).val < 1 := (x 0).isLt
  have hx1 : (x 1).val < 1 := (x 1).isLt
  unfold iblk
  rw [View.read_apply]
  show V m c main_arg1 (((cfg0.win 1).blk t).view.emb x) = V m c main_arg1 k
  refine congrArg _ ?_
  funext a
  apply Fin.ext
  match a with
  | ⟨0, _⟩ => show win0_1.index t (0 : Fin 4) * 1 + 1 * (x 0).val = (k 0).val; omega
  | ⟨1, _⟩ => show win0_1.index t (1 : Fin 4) * 1 + 1 * (x 1).val = (k 1).val; omega
  | ⟨2, _⟩ => show win0_1.index t (2 : Fin 4) * 2048 + 1 * (x 2).val = (k 2).val; omega
  | ⟨3, _⟩ => show win0_1.index t (3 : Fin 4) * 16 + 1 * (x 3).val = (k 3).val; omega

/-- The 2048 points staged from the first argument at point t are its (t / 4, t % 4) slice. -/
theorem arg0_block (c : Dev nD) (t : Fin cfg0.N) (h : Fin 8) (b : Fin 4) (hh : h.val = t.val / 4) (hb : b.val = t.val % 4) :
    blockPts (iblk m c 0 t) = slice (V m c main_arg0) h b :=
  funext fun i => funext fun d => arg0_block_apply m c t (ValueIdx.ix4 0 0 i d) (ValueIdx.ix4 h b i d) hh hb rfl rfl

/-- The 2048 points staged from the second argument at point t are its (t / 4, t % 4) slice. -/
theorem arg1_block (c : Dev nD) (t : Fin cfg0.N) (h : Fin 8) (b : Fin 4) (hh : h.val = t.val / 4) (hb : b.val = t.val % 4) :
    blockPts (iblk m c 1 t) = slice (V m c main_arg1) h b :=
  funext fun i => funext fun d => arg1_block_apply m c t (ValueIdx.ix4 0 0 i d) (ValueIdx.ix4 h b i d) hh hb rfl rfl

/-! ## What each grid point writes back -/

/-- What grid point t writes back is its block of the whole result of the two arguments as the run finds them. -/
theorem flushed_eq (c : Dev nD) (t : Fin cfg0.N) :
    (dats m 0 c).flushed 2 t
      = ((cfg0.win 2).blk t).view.read (Elt Ideal) (GK (V m c main_arg0) (V m c main_arg1)) := by
  rw [Cert.KernelIdeal.Value.flushed2_A]
  funext y
  rw [View.read_apply]
  obtain ⟨-, -, e0, e1, e2, e3⟩ := block_index t
  have ht : t.val < 32 := point_lt t
  have hy0 : (y 0).val < 1 := (y 0).isLt
  have hy1 : (y 1).val < 1 := (y 1).isLt
  refine out_block_eq c (grid0.coords t) (ms0_0 t) (hs0_0 t) (ms0_1 t) (hs0_1 t) (ms0_2 t) (hs0_2 t) scM0_0
    (Memref.isWhole_whole _) (iblk m c 0 t) (iblk m c 1 t) (V m c main_arg0) (V m c main_arg1)
    ⟨t.val / 4, by omega⟩ ⟨t.val % 4, by omega⟩ (arg0_block m c t _ _ rfl rfl) (arg1_block m c t _ _ rfl rfl)
    y (((cfg0.win 2).blk t).view.emb y) ?_ ?_ ?_ ?_
  · show win0_2.index t (0 : Fin 4) * 1 + 1 * (y 0).val = t.val / 4; omega
  · show win0_2.index t (1 : Fin 4) * 1 + 1 * (y 1).val = t.val % 4; omega
  · show win0_2.index t (2 : Fin 4) * 2048 + 1 * (y 2).val = (y 2).val; omega
  · show win0_2.index t (3 : Fin 4) * 2048 + 1 * (y 3).val = (y 3).val; omega

/-! ## The blocks cover the result -/

/-- An index of the result lies in point t's block iff each coordinate lies in the block's range on its axis. -/
theorem mem_block (t : Fin cfg0.N) (i : S8x4x2048x2048.Idx) :
    i ∈ ((cfg0.win 2).blk t).view.set ↔ ∀ a : Fin 4, win0_2.index t a * S1x1x2048x2048.size a ≤ (i a).val
      ∧ (i a).val < win0_2.index t a * S1x1x2048x2048.size a + S1x1x2048x2048.size a := by
  show i ∈ ((View.whole main_v0).slice (win0_2.rect t)).set ↔ _
  rw [View.set_slice_whole, Rect.mem_set_unit]
  exact Iff.rfl

/-- Every index of the result lies in the block of the point of its head and batch, 4 · head + batch. -/
theorem covered (i : S8x4x2048x2048.Idx) :
    ∃ t : Fin cfg0.N, (cfg0.win 2).flush t = true ∧ i ∈ ((cfg0.win 2).blk t).view.set := by
  have h0 : (i 0).val < 8 := (i 0).isLt
  have h1 : (i 1).val < 4 := (i 1).isLt
  have h2 : (i 2).val < 2048 := (i 2).isLt
  have h3 : (i 3).val < 2048 := (i 3).isLt
  obtain ⟨t, ht⟩ : ∃ t : Fin cfg0.N, t.val = (i 0).val * 4 + (i 1).val :=
    ⟨⟨(i 0).val * 4 + (i 1).val, lt_of_lt_of_eq (by omega) N_0.symm⟩, rfl⟩
  obtain ⟨-, -, e0, e1, e2, e3⟩ := block_index t
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 2048 ≤ (i 2).val ∧ (i 2).val < win0_2.index t (2 : Fin 4) * 2048 + 2048; omega
  | ⟨3, _⟩ => show win0_2.index t (3 : Fin 4) * 2048 ≤ (i 3).val ∧ (i 3).val < win0_2.index t (3 : Fin 4) * 2048 + 2048; omega

/-! ## The whole result and the run -/

/-- After the last grid point the result array is the whole result of the two arguments as launched. -/
theorem final (c : Dev nD) :
    (dats m 0 c).arrAt 2 cfg0.N
      = GK (m ((c : Thread nD τ).loc main_arg0)) (m ((c : Thread nD τ).loc main_arg1)) := by
  have h := (dats m 0 c).arrAt_eq_of_cover 2 (GK (V m c main_arg0) (V m c main_arg1)) (fun t _ => flushed_eq m c t) covered
  rw [V_main_arg0 m c, V_main_arg1 m c] at h
  exact h

/-- The kernel's run: every execution ends with the result array at the rescaled clamped distances of the two
    arguments, slice by slice, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = GK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.DistRescale

end
-- ==== Proof.lean ====
/-
  Pairwise Euclidean distances between two families of points, rescaled affinely to [-9, 9] per (head, batch) slice:
  a kernel that clamps the expanded squared distance at zero and multiplies the offset from the smallest distance by the
  quotient 18 / spread, against a reference that does not clamp and divides the product with 18 by the spread.

  Under the precondition every input is a finite real and the reference's divisor — the spread of each slice's
  distances — is not zero (where it is zero the reference divides 0 by 0).  Over finite reals the expansion
  |q|² + |k|² - 2·⟨q, k⟩ is a sum of squares, so the clamp is the identity and both programs take the same square roots;
  with a nonzero spread both rescalings are the offset times 18 times the inverse of the spread, by associativity of
  the product of extended reals.  The kernel's result array is read off its run block by block, each block the body's
  result on the staged slices; the reference's result is read off its run one operation at a time.
  The ideal pass rewrote nothing, so the kernel's idealization is the program itself read at the extended reals.
-/
import proofs.«140822_j11527692222836_1_alg».proof.Defs
import proofs.«140822_j11527692222836_1_alg».proof.Proof.Gen.Kernel
import proofs.«140822_j11527692222836_1_alg».proof.Proof.Gen.Kernel.Skeleton
import proofs.«140822_j11527692222836_1_alg».proof.Proof.Gen.Kernel.Launch
import proofs.«140822_j11527692222836_1_alg».proof.Proof.Gen.Kernel.Points
import proofs.«140822_j11527692222836_1_alg».proof.Proof.Gen.Kernel.Frame
import proofs.«140822_j11527692222836_1_alg».proof.Proof.Gen.KernelIdeal
import proofs.«140822_j11527692222836_1_alg».proof.Proof.Gen.KernelIdeal.Skeleton
import proofs.«140822_j11527692222836_1_alg».proof.Proof.Gen.KernelIdeal.Launch
import proofs.«140822_j11527692222836_1_alg».proof.Proof.Gen.KernelIdeal.Points
import proofs.«140822_j11527692222836_1_alg».proof.Proof.Gen.KernelIdeal.Frame
import proofs.«140822_j11527692222836_1_alg».proof.Proof.Gen.ReferenceIdeal
import proofs.«140822_j11527692222836_1_alg».proof.Proof.Gen.Pre_finite_inputs
import proofs.«140822_j11527692222836_1_alg».proof.Proof.Gen.KernelIdeal.Value
import proofs.«140822_j11527692222836_1_alg».proof.Proof.Gen.ReferenceIdeal.Run
import proofs.«140822_j11527692222836_1_alg».proof.Proof.Gen.ReferenceIdeal.Read
import proofs.«140822_j11527692222836_1_alg».proof.Proof.SpecLaw
import proofs.«140822_j11527692222836_1_alg».proof.Proof.RefSide
import proofs.«140822_j11527692222836_1_alg».proof.Proof.PreFacts
import proofs.«140822_j11527692222836_1_alg».proof.Proof.KernelArray
import Idealize.ShloMosaic.Adequacy
import Idealize.ShloMosaic.Init

noncomputable section

namespace Cert.Proof

open Idealize.ShloMosaic Idealize.ShloMosaic.TcCoe Idealize.SL.Sem Cert.DistRescale

/-- Under the precondition the two whole-array results are one function: slice by slice the clamp is the identity
    and the two groupings of the rescaling agree. -/
theorem results_eq (x0 x1 : (⟨4, ![8, 4, 2048, 16]⟩ : Shape).Idx → EReal)
    (hpre : Cert.Pre_finite_inputs.fn (F := Ideal) x0 x1 = fun _ => 1#1) : GK x0 x1 = GR x0 x1 := by
  obtain ⟨h0, h1, hs⟩ := pre_facts x0 x1 hpre
  funext y
  obtain ⟨h, b, i, j, rfl⟩ : ∃ (h : Fin 8) (b : Fin 4) (i j : Fin 2048), y = ValueIdx.ix4 h b i j :=
    ⟨y 0, y 1, y 2, y 3, ValueIdx.eq_ix4 y⟩
  rw [GK_ix4, GR_ix4]
  exact congrFun (congrFun (outK_eq_outR (slice x0 h b) (slice x1 h b) (fun i d => h0 _) (fun i d => h1 _) (hs h b)) i) j

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the clamped, quotient-first rescaling of its arguments and the reference's at the
    unclamped, product-first one; from arguments that agree and satisfy the precondition the two are equal. -/
theorem algebraic : Cert.algebraic_KernelIdeal_ReferenceIdeal := by
  intro m ρ m' ρ' hpre hagree
  refine ⟨fun c => GK (m ((c : Thread Cert.KernelIdeal.nD Cert.KernelIdeal.τ).loc Cert.KernelIdeal.main_arg0))
      (m ((c : Thread Cert.KernelIdeal.nD Cert.KernelIdeal.τ).loc Cert.KernelIdeal.main_arg1)), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, ref_value, (hagree c).1, (hagree c).2]
  exact (results_eq _ _ (hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
